-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_1)) (v2 : (c : Dev Cert.KernelIdeal.nD) → Buf (Elt Ideal) ((c.tc : Thread Cert.KernelIdeal.nD Cert.KernelIdeal.τ).loc Cert.KernelIdeal.main_v6_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_v6_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_v35) = v1 c
          ∧ r.2.mem ((c.tc : Thread Cert.ReferenceIdeal.nD Cert.ReferenceIdeal.τ).loc Cert.ReferenceIdeal.main_v46) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x128 : Shape := ⟨2, ![262144, 128]⟩
abbrev S128x256 : Shape := ⟨2, ![128, 256]⟩
abbrev S128x128 : Shape := ⟨2, ![128, 128]⟩
abbrev S128 : Shape := ⟨1, ![128]⟩
abbrev S_ : Shape := ⟨0, ![]⟩

class Facts : Prop where
  bcast_S_S262144x128 : S_.BroadcastsInDim S262144x128 (![] : Fin 0 → Fin S262144x128.rank)
  reducesTo_S262144x128_S_d0_1 : S262144x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part3 {F : FTy → Type} [FloatOps F] (main_arg11 : FVec F S128 .f32) (main_arg12 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128 .f32 := Host.absf main_arg11
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128 .f32 := Host.absf main_arg12
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  main_v63

def fn_part2 {F : FTy → Type} [FloatOps F] (main_arg7 : FVec F S128x128 .f32) (main_arg8 : FVec F S128 .f32) (main_arg9 : FVec F S128 .f32) (main_arg10 : FVec F S128 .f32) (main_arg11 : FVec F S128 .f32) (main_arg12 : FVec F S128 .f32) (main_v33 : IVec S_ 1) : IVec S_ 1 :=
  let main_v34 : FVec F S128x128 .f32 := Host.absf main_arg7
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg9
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128 .f32 := Host.absf main_arg10
  let main_cst_18 : FVec F S_ .f32 := constant S_ .f32 0x7F800000#32
  let main_v50 : FVec F S128 .f32 := broadcastInDim S128 ![] bcast_S_S128 main_cst_18
  fn_part3 (F := F) main_arg11 main_arg12 main_v48 main_v49 main_v50

def fn_part1 {F : FTy → Type} [FloatOps F] (main_arg4 : FVec F S128x256 .f32) (main_arg5 : FVec F S128x256 .f32) (main_arg6 : FVec F S128x256 .f32) (main_arg7 : FVec F S128x128 .f32) (main_arg8 : FVec F S128 .f32) (main_arg9 : FVec F S128 .f32) (main_arg10 : FVec F S128 .f32) (main_arg11 : FVec F S128 .f32) (main_arg12 : FVec F S128 .f32) (main_v13 : IVec S_ 1) (main_v16 : IVec S128x256 1) : IVec S_ 1 :=
  let main_c_5 : IVec S_ 1 := constantI S_ 1 1#1
  let main_v17 : IVec S_ 1 := (fun x v => Host.reduce IntOp.andi x v reducesTo_S128x256_S_d0_1 h_S_) main_v16 main_c_5
  let main_v18 : IVec S_ 1 := andi main_v13 main_v17
  let main_v19 : FVec F S128x256 .f32 := Host.absf main_arg4
  let main_cst_6 : FVec F S_ .f32 := constant S_ .f32 0x7F800000#32
  let main_v20 : FVec F S128x256 .f32 := broadcastInDim S128x256 ![] bcast_S_S128x256 main_cst_6
  let main_v21 : IVec S128x256 1 := cmpf .olt main_v19 main_v20
  let main_c_7 : IVec S_ 1 := constantI S_ 1 1#1
  let main_v22 : IVec S_ 1 := (fun x v => Host.reduce IntOp.andi x v reducesTo_S128x256_S_d0_1 h_S_) main_v21 main_c_7
  let main_v23 : IVec S_ 1 := andi main_v18 main_v22
  let main_v24 : FVec F S128x256 .f32 := Host.absf main_arg5
  let main_cst_8 : FVec F S_ .f32 := constant S_ .f32 0x7F800000#32
  let main_v25 : FVec F S128x256 .f32 := broadcastInDim S128x256 ![] bcast_S_S128x256 main_cst_8
  let main_v26 : IVec S128x256 1 := cmpf .olt main_v24 main_v25
  let main_c_9 : IVec S_ 1 := constantI S_ 1 1#1
  let main_v27 : IVec S_ 1 := (fun x v => Host.reduce IntOp.andi x v reducesTo_S128x256_S_d0_1 h_S_) main_v26 main_c_9
  let main_v28 : IVec S_ 1 := andi main_v23 main_v27
  let main_v29 : FVec F S128x256 .f32 := Host.absf main_arg6
  let main_cst_10 : FVec F S_ .f32 := constant S_ .f32 0x7F800000#32
  let main_v30 : FVec F S128x256 .f32 := broadcastInDim S128x256 ![] bcast_S_S128x256 main_cst_10
  let main_v31 : IVec S128x256 1 := cmpf .olt main_v29 main_v30
  let main_c_11 : IVec S_ 1 := constantI S_ 1 1#1
  let main_v32 : IVec S_ 1 := (fun x v => Host.reduce IntOp.andi x v reducesTo_S128x256_S_d0_1 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S262144x128 .f32) (main_arg1 : FVec F S262144x128 .f32) (main_arg2 : FVec F S262144x128 .f32) (main_arg3 : FVec F S128x256 .f32) (main_arg4 : FVec F S128x256 .f32) (main_arg5 : FVec F S128x256 .f32) (main_arg6 : FVec F S128x256 .f32) (main_arg7 : FVec F S128x128 .f32) (main_arg8 : FVec F S128 .f32) (main_arg9 : FVec F S128 .f32) (main_arg10 : FVec F S128 .f32) (main_arg11 : FVec F S128 .f32) (main_arg12 : FVec F S128 .f32) : IVec S_ 1 :=
  let main_v0 : FVec F S262144x128 .f32 := Host.absf main_arg0
  let main_cst : FVec F S_ .f32 := constant S_ .f32 0x7F800000#32
  let main_v1 : FVec F S262144x128 .f32 := broadcastInDim S262144x128 ![] bcast_S_S262144x128 main_cst
  let main_v2 : IVec S262144x128 1 := cmpf .olt main_v0 main_v1
  let main_c : IVec S_ 1 := constantI S_ 1 1#1
  let main_v3 : IVec S_ 1 := (fun x v => Host.reduce IntOp.andi x v reducesTo_S262144x128_S_d0_1 h_S_) main_v2 main_c
  let main_v4 : FVec F S262144x128 .f32 := Host.absf main_arg1
  let main_cst_0 : FVec F S_ .f32 := constant S_ .f32 0x7F800000#32
  let main_v5 : FVec F S262144x128 .f32 := broadcastInDim S262144x128 ![] bcast_S_S262144x128 main_cst_0
  let main_v6 : IVec S262144x128 1 := cmpf .olt main_v4 main_v5
  let main_c_1 : IVec S_ 1 := constantI S_ 1 1#1
  let main_v7 : IVec S_ 1 := (fun x v => Host.reduce IntOp.andi x v reducesTo_S262144x128_S_d0_1 h_S_) main_v6 main_c_1
  let main_v8 : IVec S_ 1 := andi main_v3 main_v7
  let main_v9 : FVec F S262144x128 .f32 := Host.absf main_arg2
  let main_cst_2 : FVec F S_ .f32 := constant S_ .f32 0x7F800000#32
  let main_v10 : FVec F S262144x128 .f32 := broadcastInDim S262144x128 ![] bcast_S_S262144x128 main_cst_2
  let main_v11 : IVec S262144x128 1 := cmpf .olt main_v9 main_v10
  let main_c_3 : IVec S_ 1 := constantI S_ 1 1#1
  let main_v12 : IVec S_ 1 := (fun x v => Host.reduce IntOp.andi x v reducesTo_S262144x128_S_d0_1 h_S_) main_v11 main_c_3
  let main_v13 : IVec S_ 1 := andi main_v8 main_v12
  let main_v14 : FVec F S128x256 .f32 := Host.absf main_arg3
  let main_cst_4 : FVec F S_ .f32 := constant S_ .f32 0x7F800000#32
  let main_v15 : FVec F S128x256 .f32 := broadcastInDim S128x256 ![] bcast_S_S128x256 main_cst_4
  let main_v16 : IVec S128x256 1 := cmpf .olt main_v14 main_v15
  fn_part1 (F := F) main_arg4 main_arg5 main_arg6 main_arg7 main_arg8 main_arg9 main_arg10 main_arg11 main_arg12 main_v13 main_v16
-- ==== Kernel.lean ====
abbrev S262144x128 : Shape := ⟨2, ![262144, 128]⟩
abbrev S128x256 : Shape := ⟨2, ![128, 256]⟩
abbrev S128x128 : Shape := ⟨2, ![128, 128]⟩
abbrev S128 : Shape := ⟨1, ![128]⟩
abbrev S512x256 : Shape := ⟨2, ![512, 256]⟩
abbrev S256x512 : Shape := ⟨2, ![256, 512]⟩
abbrev S512 : Shape := ⟨1, ![512]⟩
abbrev S1x512 : Shape := ⟨2, ![1, 512]⟩
abbrev S1x128 : Shape := ⟨2, ![1, 128]⟩
abbrev S2048x128 : Shape := ⟨2, ![2048, 128]⟩
abbrev S2048x256 : Shape := ⟨2, ![2048, 256]⟩
abbrev S2048x512 : Shape := ⟨2, ![2048, 512]⟩

abbrev nBuf : Space → Nat
  | .hbm => 22
  | .vmem => 16
  | .smem => 0
  | _ => 0

abbrev bufTy : (tb : Table) → Fin (tcTables nBuf tb) → BufTy
  | .hbm, ⟨0, _⟩ => ⟨S262144x128, .f32⟩
  | .hbm, ⟨1, _⟩ => ⟨S262144x128, .f32⟩
  | .hbm, ⟨2, _⟩ => ⟨S262144x128, .f32⟩
  | .hbm, ⟨3, _⟩ => ⟨S128x256, .f32⟩
  | .hbm, ⟨4, _⟩ => ⟨S128x256, .f32⟩
  | .hbm, ⟨5, _⟩ => ⟨S128x256, .f32⟩
  | .hbm, ⟨6, _⟩ => ⟨S128x256, .f32⟩
  | .hbm, ⟨7, _⟩ => ⟨S128x128, .f32⟩
  | .hbm, ⟨8, _⟩ => ⟨S128, .f32⟩
  | .hbm, ⟨9, _⟩ => ⟨S128, .f32⟩
  | .hbm, ⟨10, _⟩ => ⟨S128, .f32⟩
  | .hbm, ⟨11, _⟩ => ⟨S128, .f32⟩
  | .hbm, ⟨12, _⟩ => ⟨S128, .f32⟩
  | .hbm, ⟨13, _⟩ => ⟨S512x256, .f32⟩
  | .hbm, ⟨14, _⟩ => ⟨S256x512, .f32⟩
  | .hbm, ⟨15, _⟩ => ⟨S512, .f32⟩
  | .hbm, ⟨16, _⟩ => ⟨S1x512, .f32⟩
  | .hbm, ⟨17, _⟩ => ⟨S128x128, .f32⟩
  | .hbm, ⟨18, _⟩ => ⟨S1x128, .f32⟩
  | .hbm, ⟨19, _⟩ => ⟨S262144x128, .f32⟩
  | .hbm, ⟨20, _⟩ => ⟨S262144x128, .f32⟩
  | .hbm, ⟨21, _⟩ => ⟨S262144x128, .f32⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S256x512, .f32⟩
  | .local _ .vmem, ⟨7, _⟩ => ⟨S1x512, .f32⟩
  | .local _ .vmem, ⟨8, _⟩ => ⟨S128x128, .f32⟩
  | .local _ .vmem, ⟨9, _⟩ => ⟨S1x128, .f32⟩
  | .local _ .vmem, ⟨10, _⟩ => ⟨S2048x128, .f32⟩
  | .local _ .vmem, ⟨11, _⟩ => ⟨S2048x128, .f32⟩
  | .local _ .vmem, ⟨12, _⟩ => ⟨S2048x128, .f32⟩
  | .local _ .vmem, ⟨13, _⟩ => ⟨S2048x128, .f32⟩
  | .local _ .vmem, ⟨14, _⟩ => ⟨S2048x128, .f32⟩
  | .local _ .vmem, ⟨15, _⟩ => ⟨S2048x128, .f32⟩
  | _, _ => ⟨S262144x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6_0 : Ref sig .tc := ⟨.hbm, 19, rfl⟩
abbrev main_v6_1 : Ref sig .tc := ⟨.hbm, 20, rfl⟩
abbrev main_v6_2 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2048x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2048x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S2048x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  concatenates_S128x256_S128x256_S128x256_S128x256_S512x256_d0 : Shape.Concatenates [S128x256, S128x256, S128x256, S128x256] S512x256 0
  transposes_S512x256_S256x512_1_0 : S512x256.Transposes [1, 0] S256x512
  concatenates_S128_S128_S128_S128_S512_d0 : Shape.Concatenates [S128, S128, S128, S128] S512 0
  shapeCasts_S512_S1x512 : S512.ShapeCasts S1x512
  transposes_S128x128_S128x128_1_0 : S128x128.Transposes [1, 0] S128x128
  shapeCasts_S128_S1x128 : S128.ShapeCasts S1x128
  inb_S2048x128_S2048x128_0_0 : ∀ a, (![0, 0] : Fin 2 → Nat) a + S2048x128.size a ≤ S2048x128.size a
  h_S2048x128 : 0 < S2048x128.numel
  concatenates_S2048x128_S2048x128_S2048x256_d1 : Shape.Concatenates [S2048x128, S2048x128] S2048x256 1
  bitsLt_bf16_f32 : FTy.bits .bf16 < FTy.bits .f32
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2048x512 : S1x512.Broadcasts S2048x512
  slices_S2048x512_o0_0_S2048x128 : S2048x512.Slices ![0, 0] S2048x128
  slices_S2048x512_o0_128_S2048x128 : S2048x512.Slices ![0, 128] S2048x128
  slices_S2048x512_o0_256_S2048x128 : S2048x512.Slices ![0, 256] S2048x128
  slices_S2048x512_o0_384_S2048x128 : S2048x512.Slices ![0, 384] S2048x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2048x128 : S1x128.Broadcasts S2048x128
  dot_S2048x256_S256x512_S2048x512_1_0_0_1_n_n_wf : DotDims.WF S2048x256 S256x512 S2048x512 [1] [0] [0] [1] [] []
  dot_S2048x128_S128x128_S2048x128_1_0_0_1_n_n_wf : DotDims.WF S2048x128 S128x128 S2048x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x128.size a ≤ S262144x128.size a
  hwx0_0 : ∀ i : grid0.Coords, EltTy.bits .f32 = 32 ∨ (Rect.block (s := S262144x128) S2048x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x128.size a ≤ S262144x128.size a
  hwx0_1 : ∀ i : grid0.Coords, EltTy.bits .f32 = 32 ∨ (Rect.block (s := S262144x128) S2048x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x128.size a ≤ S262144x128.size a
  hwx0_2 : ∀ i : grid0.Coords, EltTy.bits .f32 = 32 ∨ (Rect.block (s := S262144x128) S2048x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x512.size a ≤ S256x512.size a
  hwx0_3 : ∀ i : grid0.Coords, EltTy.bits .f32 = 32 ∨ (Rect.block (s := S256x512) S256x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2048x128.size a ≤ S262144x128.size a
  hwx0_7 : ∀ i : grid0.Coords, EltTy.bits .f32 = 32 ∨ (Rect.block (s := S262144x128) S2048x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S2048x128.size a ≤ S262144x128.size a
  hwx0_8 : ∀ i : grid0.Coords, EltTy.bits .f32 = 32 ∨ (Rect.block (s := S262144x128) S2048x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S2048x128.size a ≤ S262144x128.size a
  hwx0_9 : ∀ i : grid0.Coords, EltTy.bits .f32 = 32 ∨ (Rect.block (s := S262144x128) S2048x128.size (cc0_transform_9 i) (hinb0_9 i)).WholeWords (EltTy.packing .f32)

variable [Facts₀]

def dot_S2048x256_S256x512_S2048x512_1_0_0_1_n_n : DotDims S2048x256 S256x512 S2048x512 where
  lhsContracting := [1]
  rhsContracting := [0]
  lhsNonContracting := [0]
  rhsNonContracting := [1]
  lhsBatch := []
  rhsBatch := []
  wf := dot_S2048x256_S256x512_S2048x512_1_0_0_1_n_n_wf
def dot_S2048x128_S128x128_S2048x128_1_0_0_1_n_n : DotDims S2048x128 S128x128 S2048x128 where
  lhsContracting := [1]
  rhsContracting := [0]
  lhsNonContracting := [0]
  rhsNonContracting := [1]
  lhsBatch := []
  rhsBatch := []
  wf := dot_S2048x128_S128x128_S2048x128_1_0_0_1_n_n_wf

abbrev win0_0 : Pipeline.Window sig grid0 :=
  Pipeline.Window.ofSpec (Memref.whole main_arg0) S2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S2048x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S256x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v6_0) S2048x128.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v6_1) S2048x128.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v6_2) S2048x128.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S262144x128 : Shape := ⟨2, ![262144, 128]⟩
abbrev S128x256 : Shape := ⟨2, ![128, 256]⟩
abbrev S128x128 : Shape := ⟨2, ![128, 128]⟩
abbrev S128 : Shape := ⟨1, ![128]⟩
abbrev S262144x256 : Shape := ⟨2, ![262144, 256]⟩
abbrev S512x256 : Shape := ⟨2, ![512, 256]⟩
abbrev S512 : Shape := ⟨1, ![512]⟩
abbrev S256x512 : Shape := ⟨2, ![256, 512]⟩
abbrev S262144x512 : Shape := ⟨2, ![262144, 512]⟩
abbrev S1x512 : Shape := ⟨2, ![1, 512]⟩
abbrev S_ : Shape := ⟨0, ![]⟩
abbrev S1x128 : Shape := ⟨2, ![1, 128]⟩

abbrev nBuf : Space → Nat
  | .hbm => 68
  | .vmem => 0
  | .smem => 0
  | _ => 0

abbrev bufTy : (tb : Table) → Fin (tcTables nBuf tb) → BufTy
  | .hbm, ⟨0, _⟩ => ⟨S262144x128, .f32⟩
  | .hbm, ⟨1, _⟩ => ⟨S262144x128, .f32⟩
  | .hbm, ⟨2, _⟩ => ⟨S262144x128, .f32⟩
  | .hbm, ⟨3, _⟩ => ⟨S128x256, .f32⟩
  | .hbm, ⟨4, _⟩ => ⟨S128x256, .f32⟩
  | .hbm, ⟨5, _⟩ => ⟨S128x256, .f32⟩
  | .hbm, ⟨6, _⟩ => ⟨S128x256, .f32⟩
  | .hbm, ⟨7, _⟩ => ⟨S128x128, .f32⟩
  | .hbm, ⟨8, _⟩ => ⟨S128, .f32⟩
  | .hbm, ⟨9, _⟩ => ⟨S128, .f32⟩
  | .hbm, ⟨10, _⟩ => ⟨S128, .f32⟩
  | .hbm, ⟨11, _⟩ => ⟨S128, .f32⟩
  | .hbm, ⟨12, _⟩ => ⟨S128, .f32⟩
  | .hbm, ⟨13, _⟩ => ⟨S262144x256, .f32⟩
  | .hbm, ⟨14, _⟩ => ⟨S512x256, .f32⟩
  | .hbm, ⟨15, _⟩ => ⟨S512, .f32⟩
  | .hbm, ⟨16, _⟩ => ⟨S256x512, .f32⟩
  | .hbm, ⟨17, _⟩ => ⟨S262144x512, .f32⟩
  | .hbm, ⟨18, _⟩ => ⟨S1x512, .f32⟩
  | .hbm, ⟨19, _⟩ => ⟨S262144x512, .f32⟩
  | .hbm, ⟨20, _⟩ => ⟨S262144x512, .f32⟩
  | .hbm, ⟨21, _⟩ => ⟨S262144x128, .f32⟩
  | .hbm, ⟨22, _⟩ => ⟨S262144x128, .f32⟩
  | .hbm, ⟨23, _⟩ => ⟨S262144x128, .f32⟩
  | .hbm, ⟨24, _⟩ => ⟨S262144x128, .f32⟩
  | .hbm, ⟨25, _⟩ => ⟨S262144x128, .f32⟩
  | .hbm, ⟨26, _⟩ => ⟨S262144x128, .f32⟩
  | .hbm, ⟨27, _⟩ => ⟨S262144x128, .f32⟩
  | .hbm, ⟨28, _⟩ => ⟨S_, .f32⟩
  | .hbm, ⟨29, _⟩ => ⟨S262144x128, .f32⟩
  | .hbm, ⟨30, _⟩ => ⟨S262144x128, .f32⟩
  | .hbm, ⟨31, _⟩ => ⟨S_, .f32⟩
  | .hbm, ⟨32, _⟩ => ⟨S262144x128, .f32⟩
  | .hbm, ⟨33, _⟩ => ⟨S262144x128, .f32⟩
  | .hbm, ⟨34, _⟩ => ⟨S262144x128, .f32⟩
  | .hbm, ⟨35, _⟩ => ⟨S262144x128, .f32⟩
  | .hbm, ⟨36, _⟩ => ⟨S_, .f32⟩
  | .hbm, ⟨37, _⟩ => ⟨S262144x128, .f32⟩
  | .hbm, ⟨38, _⟩ => ⟨S262144x128, .f32⟩
  | .hbm, ⟨39, _⟩ => ⟨S_, .f32⟩
  | .hbm, ⟨40, _⟩ => ⟨S262144x128, .f32⟩
  | .hbm, ⟨41, _⟩ => ⟨S262144x128, .f32⟩
  | .hbm, ⟨42, _⟩ => ⟨S262144x128, .f32⟩
  | .hbm, ⟨43, _⟩ => ⟨S262144x128, .f32⟩
  | .hbm, ⟨44, _⟩ => ⟨S_, .f32⟩
  | .hbm, ⟨45, _⟩ => ⟨S262144x128, .f32⟩
  | .hbm, ⟨46, _⟩ => ⟨S262144x128, .f32⟩
  | .hbm, ⟨47, _⟩ => ⟨S_, .f32⟩
  | .hbm, ⟨48, _⟩ => ⟨S262144x128, .f32⟩
  | .hbm, ⟨49, _⟩ => ⟨S262144x128, .f32⟩
  | .hbm, ⟨50, _⟩ => ⟨S262144x128, .f32⟩
  | .hbm, ⟨51, _⟩ => ⟨S262144x128, .f32⟩
  | .hbm, ⟨52, _⟩ => ⟨S262144x128, .f32⟩
  | .hbm, ⟨53, _⟩ => ⟨S262144x128, .f32⟩
  | .hbm, ⟨54, _⟩ => ⟨S262144x128, .f32⟩
  | .hbm, ⟨55, _⟩ => ⟨S128x128, .f32⟩
  | .hbm, ⟨56, _⟩ => ⟨S262144x128, .f32⟩
  | .hbm, ⟨57, _⟩ => ⟨S1x128, .f32⟩
  | .hbm, ⟨58, _⟩ => ⟨S262144x128, .f32⟩
  | .hbm, ⟨59, _⟩ => ⟨S262144x128, .f32⟩
  | .hbm, ⟨60, _⟩ => ⟨S262144x128, .f32⟩
  | .hbm, ⟨61, _⟩ => ⟨S262144x128, .f32⟩
  | .hbm, ⟨62, _⟩ => ⟨S_, .f32⟩
  | .hbm, ⟨63, _⟩ => ⟨S262144x128, .f32⟩
  | .hbm, ⟨64, _⟩ => ⟨S262144x128, .f32⟩
  | .hbm, ⟨65, _⟩ => ⟨S_, .f32⟩
  | .hbm, ⟨66, _⟩ => ⟨S262144x128, .f32⟩
  | .hbm, ⟨67, _⟩ => ⟨S262144x128, .f32⟩
  | _, _ => ⟨S262144x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst : Ref sig .tc := ⟨.hbm, 28, rfl⟩
abbrev main_v15 : Ref sig .tc := ⟨.hbm, 29, rfl⟩
abbrev main_v16 : Ref sig .tc := ⟨.hbm, 30, rfl⟩
abbrev main_cst_0 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_1 : Ref sig .tc := ⟨.hbm, 36, rfl⟩
abbrev main_v21 : Ref sig .tc := ⟨.hbm, 37, rfl⟩
abbrev main_v22 : Ref sig .tc := ⟨.hbm, 38, rfl⟩
abbrev main_cst_2 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst_3 : Ref sig .tc := ⟨.hbm, 44, rfl⟩
abbrev main_v27 : Ref sig .tc := ⟨.hbm, 45, rfl⟩
abbrev main_v28 : Ref sig .tc := ⟨.hbm, 46, rfl⟩
abbrev main_cst_4 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_5 : Ref sig .tc := ⟨.hbm, 62, rfl⟩
abbrev main_v43 : Ref sig .tc := ⟨.hbm, 63, rfl⟩
abbrev main_v44 : Ref sig .tc := ⟨.hbm, 64, rfl⟩
abbrev main_cst_6 : Ref sig .tc := ⟨.hbm, 65, rfl⟩
abbrev main_v45 : Ref sig .tc := ⟨.hbm, 66, rfl⟩
abbrev main_v46 : Ref sig .tc := ⟨.hbm, 67, rfl⟩

abbrev nD : Nat := 1
abbrev τ : Topo := Topo.v7x

variable {F : FTy → Type} [FloatOps F]

class Facts₀ : Prop where
  concatenates_S262144x128_S262144x128_S262144x256_d1 : Shape.Concatenates [S262144x128, S262144x128] S262144x256 1
  concatenates_S128x256_S128x256_S128x256_S128x256_S512x256_d0 : Shape.Concatenates [S128x256, S128x256, S128x256, S128x256] S512x256 0
  concatenates_S128_S128_S128_S128_S512_d0 : Shape.Concatenates [S128, S128, S128, S128] S512 0
  transposes_S512x256_S256x512_1_0 : S512x256.Transposes [1, 0] S256x512
  bcast_S512_S1x512_1 : S512.BroadcastsInDim S1x512 (![1] : Fin 1 → Fin S1x512.rank)
  bcast_S1x512_S262144x512_0_1 : S1x512.BroadcastsInDim S262144x512 (![0, 1] : Fin 2 → Fin S262144x512.rank)
  slices_S262144x512_S262144x128_0_0 : S262144x512.Slices ![0, 0] S262144x128
  slices_S262144x512_S262144x128_0_128 : S262144x512.Slices ![0, 128] S262144x128
  slices_S262144x512_S262144x128_0_256 : S262144x512.Slices ![0, 256] S262144x128
  slices_S262144x512_S262144x128_0_384 : S262144x512.Slices ![0, 384] S262144x128
  bcast_S_S262144x128 : S_.BroadcastsInDim S262144x128 (![] : Fin 0 → Fin S262144x128.rank)
  transposes_S128x128_S128x128_1_0 : S128x128.Transposes [1, 0] S128x128
  bcast_S128_S1x128_1 : S128.BroadcastsInDim S1x128 (![1] : Fin 1 → Fin S1x128.rank)
  bcast_S1x128_S262144x128_0_1 : S1x128.BroadcastsInDim S262144x128 (![0, 1] : Fin 2 → Fin S262144x128.rank)
  dot_S262144x256_S256x512_S262144x512_1_0_0_1_n_n_wf : DotDims.WF S262144x256 S256x512 S262144x512 [1] [0] [0] [1] [] []
  dot_S262144x128_S128x128_S262144x128_1_0_0_1_n_n_wf : DotDims.WF S262144x128 S128x128 S262144x128 [1] [0] [0] [1] [] []

variable [Facts₀]

def dot_S262144x256_S256x512_S262144x512_1_0_0_1_n_n : DotDims S262144x256 S256x512 S262144x512 where
  lhsContracting := [1]
  rhsContracting := [0]
  lhsNonContracting := [0]
  rhsNonContracting := [1]
  lhsBatch := []
  rhsBatch := []
  wf := dot_S262144x256_S256x512_S262144x512_1_0_0_1_n_n_wf
def dot_S262144x128_S128x128_S262144x128_1_0_0_1_n_n : DotDims S262144x128 S128x128 S262144x128 where
  lhsContracting := [1]
  rhsContracting := [0]
  lhsNonContracting := [0]
  rhsNonContracting := [1]
  lhsBatch := []
  rhsBatch := []
  wf := dot_S262144x128_S128x128_S262144x128_1_0_0_1_n_n_wf

class Facts : Prop extends Facts₀ where

variable [Facts]
-- ==== Proof.KernelFrame.lean ====
/-
  The frame of the LSTM-cell program `Kernel`: every weakly fair execution of @main terminates without a fault and leaves
  the thirteen argument arrays as they were.

  @main first builds, on the host, the stacked and transposed gate weights (the four [128,256] matrices stacked along
  axis 0 and transposed to [256,512]), the stacked gate bias as a row [1,512], the transposed output weights and the
  output bias as a row [1,128]; none of these six operations writes an argument array. It then runs one region over
  128 grid points. At point t the body is handed rows 2048·t … 2048·t+2047 of c_, h_ and x (windows 0, 1, 2), the four
  host-built arrays whole (windows 3–6, fetched once), and writes one block of 2048 rows of each result (windows 7, 8, 9):

      gates = [x | h] · Wt + bias          (a [2048,256]·[256,512] product into a zero accumulator)
      c'    = σ(gates[:, 256:384]) · c + σ(gates[:, 128:256]) · tanh(gates[:, 0:128])
      h'    = σ(gates[:, 384:512]) · tanh(c')
      y     = σ(h' · Wout_t + bias_out)

  Each result block is stored whole, by one store through the block's full rectangle, so what a result's staging buffer
  holds after the body is a function of the seven input blocks alone (`cellOut`, `hiddenOut`, `readOut`: the canon of
  that one store). The body also loads each result buffer before storing into it; those loads are dead, and the triple
  below owns each result buffer at SOME contents, which is all a dead load needs.

  Everything here is stated at any float instance `F`: the frame does not look at the arithmetic.
-/
import proofs.«162901_j54546084659583_1_alg».proof.Proof.Gen.Kernel.Launch
import proofs.«162901_j54546084659583_1_alg».proof.Proof.Gen.Kernel.Skeleton
import proofs.«162901_j54546084659583_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.FrameRun

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: the launch memory after the six host operations. -/
abbrev V (c : Dev nD) (b : Ref sig .tc) : Buf (Elt F) ((c : Thread nD τ).loc b) :=
  StableHlo.after hostOps0 (fun b => m (c, b)) b

/-- None of the six host operations allocates. -/
theorem hostOps0_fresh : (hostOps0 : List (HloOp τ sig (Elt F))).Forall fun op => op.fresh = ∅ := by
  simp only [List.Forall]; repeat' constructor

/-- @main is its host operations followed by the region, so the region is entered at `V`. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- A buffer none of the six host operations writes — they write `main_v0` … `main_v5` and nothing else — is found by
    the region as launched. -/
theorem V_unwritten (c : Dev nD) (b : Ref sig .tc)
    (hb : b ≠ main_v0 ∧ b ≠ main_v1 ∧ b ≠ main_v2 ∧ b ≠ main_v3 ∧ b ≠ main_v4 ∧ b ≠ main_v5) :
    V m c b = m ((c : Thread nD τ).loc b) :=
  StableHlo.after_of_forall_not_mem (b := Proc.devRef .tc b) _ _ (List.forall_iff_forall_mem.mp (by
    simp only [hostOps0, List.Forall, StableHlo.nary_writes, StableHlo.unary_writes, StableHlo.reshape_writes, Finset.mem_singleton]
    exact ⟨StableHlo.devRef_ne_of_ne hb.1, StableHlo.devRef_ne_of_ne hb.2.1, StableHlo.devRef_ne_of_ne hb.2.2.1,
      StableHlo.devRef_ne_of_ne hb.2.2.2.1, StableHlo.devRef_ne_of_ne hb.2.2.2.2.1, StableHlo.devRef_ne_of_ne hb.2.2.2.2.2⟩))

theorem V_main_arg0 (c : Dev nD) : V m c main_arg0 = m ((c : Thread nD τ).loc main_arg0) := V_unwritten m c main_arg0 (by decide)
theorem V_main_arg1 (c : Dev nD) : V m c main_arg1 = m ((c : Thread nD τ).loc main_arg1) := V_unwritten m c main_arg1 (by decide)
theorem V_main_arg2 (c : Dev nD) : V m c main_arg2 = m ((c : Thread nD τ).loc main_arg2) := V_unwritten m c main_arg2 (by decide)
theorem V_main_arg3 (c : Dev nD) : V m c main_arg3 = m ((c : Thread nD τ).loc main_arg3) := V_unwritten m c main_arg3 (by decide)
theorem V_main_arg4 (c : Dev nD) : V m c main_arg4 = m ((c : Thread nD τ).loc main_arg4) := V_unwritten m c main_arg4 (by decide)
theorem V_main_arg5 (c : Dev nD) : V m c main_arg5 = m ((c : Thread nD τ).loc main_arg5) := V_unwritten m c main_arg5 (by decide)
theorem V_main_arg6 (c : Dev nD) : V m c main_arg6 = m ((c : Thread nD τ).loc main_arg6) := V_unwritten m c main_arg6 (by decide)
theorem V_main_arg7 (c : Dev nD) : V m c main_arg7 = m ((c : Thread nD τ).loc main_arg7) := V_unwritten m c main_arg7 (by decide)
theorem V_main_arg8 (c : Dev nD) : V m c main_arg8 = m ((c : Thread nD τ).loc main_arg8) := V_unwritten m c main_arg8 (by decide)
theorem V_main_arg9 (c : Dev nD) : V m c main_arg9 = m ((c : Thread nD τ).loc main_arg9) := V_unwritten m c main_arg9 (by decide)
theorem V_main_arg10 (c : Dev nD) : V m c main_arg10 = m ((c : Thread nD τ).loc main_arg10) := V_unwritten m c main_arg10 (by decide)
theorem V_main_arg11 (c : Dev nD) : V m c main_arg11 = m ((c : Thread nD τ).loc main_arg11) := V_unwritten m c main_arg11 (by decide)
theorem V_main_arg12 (c : Dev nD) : V m c main_arg12 = m ((c : Thread nD τ).loc main_arg12) := V_unwritten m c main_arg12 (by decide)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, whether the pipeline fetched it there or the
    block index has not moved since it did, for any proof data over `V` whose body leaves the block in place. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, whether the pipeline fetched it there or the
    block index has not moved since it did, for any proof data over `V` whose body leaves the block in place. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, whether the pipeline fetched it there or the
    block index has not moved since it did, for any proof data over `V` whose body leaves the block in place. -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, whether the pipeline fetched it there or the
    block index has not moved since it did, for any proof data over `V` whose body leaves the block in place. -/
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, whether the pipeline fetched it there or the
    block index has not moved since it did, for any proof data over `V` whose body leaves the block in place. -/
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, whether the pipeline fetched it there or the
    block index has not moved since it did, for any proof data over `V` whose body leaves the block in place. -/
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, whether the pipeline fetched it there or the
    block index has not moved since it did, for any proof data over `V` whose body leaves the block in place. -/
theorem before6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from a frame run's -/

/-- From a run that ends with every window's array at what the proof data computes and every other unscoped buffer as
    the region found it: c_, h_ and x are input windows' arrays (an input's array ends at its entry contents), the other
    ten arguments are staged by no window; and the region found all thirteen as launched. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c)⟩) h

/-! ## The body's accesses: each buffer through its whole rectangle -/

abbrev rRows : Rect S2048x128 := Rect.unit (s := S2048x128) ![0, 0] S2048x128.size inb_S2048x128_S2048x128_0_0
abbrev rGateW : Rect S256x512 := Rect.unit (s := S256x512) ![0, 0] S256x512.size inb_S256x512_S256x512_0_0
abbrev rGateB : Rect S1x512 := Rect.unit (s := S1x512) ![0, 0] S1x512.size inb_S1x512_S1x512_0_0
abbrev rOutW : Rect S128x128 := Rect.unit (s := S128x128) ![0, 0] S128x128.size inb_S128x128_S128x128_0_0
abbrev rOutB : Rect S1x128 := Rect.unit (s := S1x128) ![0, 0] S1x128.size inb_S1x128_S1x128_0_0

/-! ## What the body leaves in each result window's buffer

  The arguments are the seven input blocks in window order: `x0` the rows of c_, `x1` of h_, `x2` of x, `x3` the gate
  weights, `x4` the gate bias, `x5` the output weights, `x6` the output bias. (The body's payloads take x first, then h,
  then c.) -/

/-- The new cell state's block: the one store into window 7. -/
def cellOut (x0 x1 x2 : Vec F S2048x128 .f32) (x3 : Vec F S256x512 .f32) (x4 : Vec F S1x512 .f32) : Vec F S2048x128 .f32 :=
  View.canon [⟨rRows, k0_pay2 (View.ld x2 rRows) (View.ld x1 rRows) (View.ld x0 rRows) (View.ld x3 rGateW) (View.ld x4 rGateB)⟩]

/-- The new hidden state's block: the one store into window 8. -/
def hiddenOut (x0 x1 x2 : Vec F S2048x128 .f32) (x3 : Vec F S256x512 .f32) (x4 : Vec F S1x512 .f32) : Vec F S2048x128 .f32 :=
  View.canon [⟨rRows, k0_pay3 (View.ld x2 rRows) (View.ld x1 rRows) (View.ld x0 rRows) (View.ld x3 rGateW) (View.ld x4 rGateB)⟩]

/-- The read-out's block: the one store into window 9. -/
def readOut (x0 x1 x2 : Vec F S2048x128 .f32) (x3 : Vec F S256x512 .f32) (x4 : Vec F S1x512 .f32) (x5 : Vec F S128x128 .f32) (x6 : Vec F S1x128 .f32) : Vec F S2048x128 .f32 :=
  View.canon [⟨rRows, k0_pay4 (View.ld x2 rRows) (View.ld x1 rRows) (View.ld x0 rRows) (View.ld x3 rGateW) (View.ld x4 rGateB) (View.ld x5 rOutW) (View.ld x6 rOutB)⟩]

/-- A store through the whole rectangle of a [2048,128] buffer covers the buffer. -/
theorem cover_rows (p0 : Vec F S2048x128 .f32) (y : S2048x128.Idx) :
    ∃ pc ∈ ([⟨rRows, p0⟩] : List (View.Piece (Elt F) S2048x128 .f32)), y ∈ pc.1.set :=
  View.cover_of_tiled [⟨rRows, p0⟩] S2048x128.size (by rfl) y

/-! ## The body's triple -/

set_option maxHeartbeats 4000000 in
/-- The body on whole staging memrefs — the seven inputs' at contents `x0` … `x6`, the three results' at anything — runs to
    its end leaving the inputs' as they were and the results' at `cellOut`, `hiddenOut`, `readOut` of the inputs'. -/
theorem sound_kernel (c : Dev nD) (E : Set ℕ) (i : grid0.Coords) (a0 : Memref sig .tc .vmem S2048x128 .f32) (ha0 : a0.IsWhole) (a1 : Memref sig .tc .vmem S2048x128 .f32) (ha1 : a1.IsWhole) (a2 : Memref sig .tc .vmem S2048x128 .f32) (ha2 : a2.IsWhole) (a3 : Memref sig .tc .vmem S256x512 .f32) (ha3 : a3.IsWhole) (a4 : Memref sig .tc .vmem S1x512 .f32) (ha4 : a4.IsWhole) (a5 : Memref sig .tc .vmem S128x128 .f32) (ha5 : a5.IsWhole) (a6 : Memref sig .tc .vmem S1x128 .f32) (ha6 : a6.IsWhole) (a7 : Memref sig .tc .vmem S2048x128 .f32) (ha7 : a7.IsWhole) (a8 : Memref sig .tc .vmem S2048x128 .f32) (ha8 : a8.IsWhole) (a9 : Memref sig .tc .vmem S2048x128 .f32) (ha9 : a9.IsWhole)
    (x0 x1 x2 : Vec F S2048x128 .f32) (x3 : Vec F S256x512 .f32) (x4 : Vec F S1x512 .f32) (x5 : Vec F S128x128 .f32) (x6 : Vec F S1x128 .f32) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6
        ∗ (∃ d, owns (c : Thread nD τ) a7 fullShare d) ∗ (∃ d, owns (c : Thread nD τ) a8 fullShare d) ∗ (∃ d, owns (c : Thread nD τ) a9 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6
            ∗ owns (c : Thread nD τ) a7 fullShare (cellOut x0 x1 x2 x3 x4) ∗ owns (c : Thread nD τ) a8 fullShare (hiddenOut x0 x1 x2 x3 x4) ∗ owns (c : Thread nD τ) a9 fullShare (readOut x0 x1 x2 x3 x4 x5 x6)) -∗ K ⟨⟩))
      ⊢ wp frame (wpE (defs₀ (F := F)) Variants.none c none) E (cc0_lstm_kernel i a0 ha0 a1 ha1 a2 ha2 a3 ha3 a4 ha4 a5 ha5 a6 ha6 a7 ha7 a8 ha8 a9 ha9) K := by
  simp only [cc0_lstm_kernel_eq_skeleton]; unfold cc0_lstm_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (cover_rows _)
  isplitl [H8]
  · iexists _; isplitr
    swap; · iexact H8
    ipureintro
    exact View.read_writes_eq_canon _ _ _ (cover_rows _)
  iexists _; isplitr
  swap; · iexact H9
  ipureintro
  exact View.read_writes_eq_canon _ _ _ (cover_rows _)

/-! ## The pipeline's proof data -/

/-- On core `c`: the arrays as the region finds them; after the body at point `t` each input's buffer still at its block
    and each result's at its function of the seven input blocks; the invariant the scoped rest and the generator
    register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => cellOut (iblk m c 0 t) (iblk m c 1 t) (iblk m c 2 t) (iblk m c 3 t) (iblk m c 4 t)
    | ⟨8, _⟩ => hiddenOut (iblk m c 0 t) (iblk m c 1 t) (iblk m c 2 t) (iblk m c 3 t) (iblk m c 4 t)
    | ⟨9, _⟩ => readOut (iblk m c 0 t) (iblk m c 1 t) (iblk m c 2 t) (iblk m c 3 t) (iblk m c 4 t) (iblk m c 5 t) (iblk m c 6 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = cellOut (iblk m c 0 t) (iblk m c 1 t) (iblk m c 2 t) (iblk m c 3 t) (iblk m c 4 t) := by dsimp only [dats]
theorem after8 (c : Dev nD) (t : Fin cfg0.N) : (dats m 0 c).after 8 t = hiddenOut (iblk m c 0 t) (iblk m c 1 t) (iblk m c 2 t) (iblk m c 3 t) (iblk m c 4 t) := by dsimp only [dats]
theorem after9 (c : Dev nD) (t : Fin cfg0.N) : (dats m 0 c).after 9 t = readOut (iblk m c 0 t) (iblk m c 1 t) (iblk m c 2 t) (iblk m c 3 t) (iblk m c 4 t) (iblk m c 5 t) (iblk m c 6 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d
theorem before5 (c : Dev nD) (t : Fin cfg0.N) (d) : (dats m 0 c).before 5 t d = iblk m c 5 t :=
  before5_of m (dats m 0 c) (A_eq m c 5) (after5 m c) t d
theorem before6 (c : Dev nD) (t : Fin cfg0.N) (d) : (dats m 0 c).before 6 t d = iblk m c 6 t :=
  before6_of m (dats m 0 c) (A_eq m c 6) (after6 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t))

/-- At any point the inputs' memrefs hold their blocks, so the body's triple applies; the invariant and the core's
    `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6]
  rw [show (dats m 0 c).Φ t.succ = (dats m 0 c).Φ t.castSucc from rfl,
    show (dats m 0 c).owesAt () t.succ = (dats m 0 c).owesAt () t.castSucc from rfl,
    after0, after1, after2, after3, after4, after5, after6, after7, after8, after9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel c Set.univ _ _ _ _ _ _ _ _ _ _ _ _ _ _ _ _ _ _ _ _ _ (iblk m c 0 t) (iblk m c 1 t) (iblk m c 2 t) (iblk m c 3 t) (iblk m c 4 t) (iblk m c 5 t) (iblk m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, and every final state has each window's array at what the proof
    data computes and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame of `Kernel`, at any `F`. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  frame_of m ρ (dats m) (A_eq m) (run_main m ρ)

end Cert.Kernel.FrameRun

end
-- ==== Proof.KernelIdealFrame.lean ====
/-
  The frame of the LSTM-cell program `KernelIdeal`: every weakly fair execution of @main terminates without a fault and leaves
  the thirteen argument arrays as they were.

  @main first builds, on the host, the stacked and transposed gate weights (the four [128,256] matrices stacked along
  axis 0 and transposed to [256,512]), the stacked gate bias as a row [1,512], the transposed output weights and the
  output bias as a row [1,128]; none of these six operations writes an argument array. It then runs one region over
  128 grid points. At point t the body is handed rows 2048·t … 2048·t+2047 of c_, h_ and x (windows 0, 1, 2), the four
  host-built arrays whole (windows 3–6, fetched once), and writes one block of 2048 rows of each result (windows 7, 8, 9):

      gates = [x | h] · Wt + bias          (a [2048,256]·[256,512] product into a zero accumulator)
      c'    = σ(gates[:, 256:384]) · c + σ(gates[:, 128:256]) · tanh(gates[:, 0:128])
      h'    = σ(gates[:, 384:512]) · tanh(c')
      y     = σ(h' · Wout_t + bias_out)

  Each result block is stored whole, by one store through the block's full rectangle, so what a result's staging buffer
  holds after the body is a function of the seven input blocks alone (`cellOut`, `hiddenOut`, `readOut`: the canon of
  that one store). The body also loads each result buffer before storing into it; those loads are dead, and the triple
  below owns each result buffer at SOME contents, which is all a dead load needs.

  Everything here is stated at any float instance `F`: the frame does not look at the arithmetic.
-/
import proofs.«162901_j54546084659583_1_alg».proof.Proof.Gen.KernelIdeal.Launch
import proofs.«162901_j54546084659583_1_alg».proof.Proof.Gen.KernelIdeal.Skeleton
import proofs.«162901_j54546084659583_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.FrameRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: the launch memory after the six host operations. -/
abbrev V (c : Dev nD) (b : Ref sig .tc) : Buf (Elt F) ((c : Thread nD τ).loc b) :=
  StableHlo.after hostOps0 (fun b => m (c, b)) b

/-- None of the six host operations allocates. -/
theorem hostOps0_fresh : (hostOps0 : List (HloOp τ sig (Elt F))).Forall fun op => op.fresh = ∅ := by
  simp only [List.Forall]; repeat' constructor

/-- @main is its host operations followed by the region, so the region is entered at `V`. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- A buffer none of the six host operations writes — they write `main_v0` … `main_v5` and nothing else — is found by
    the region as launched. -/
theorem V_unwritten (c : Dev nD) (b : Ref sig .tc)
    (hb : b ≠ main_v0 ∧ b ≠ main_v1 ∧ b ≠ main_v2 ∧ b ≠ main_v3 ∧ b ≠ main_v4 ∧ b ≠ main_v5) :
    V m c b = m ((c : Thread nD τ).loc b) :=
  StableHlo.after_of_forall_not_mem (b := Proc.devRef .tc b) _ _ (List.forall_iff_forall_mem.mp (by
    simp only [hostOps0, List.Forall, StableHlo.nary_writes, StableHlo.unary_writes, StableHlo.reshape_writes, Finset.mem_singleton]
    exact ⟨StableHlo.devRef_ne_of_ne hb.1, StableHlo.devRef_ne_of_ne hb.2.1, StableHlo.devRef_ne_of_ne hb.2.2.1,
      StableHlo.devRef_ne_of_ne hb.2.2.2.1, StableHlo.devRef_ne_of_ne hb.2.2.2.2.1, StableHlo.devRef_ne_of_ne hb.2.2.2.2.2⟩))

theorem V_main_arg0 (c : Dev nD) : V m c main_arg0 = m ((c : Thread nD τ).loc main_arg0) := V_unwritten m c main_arg0 (by decide)
theorem V_main_arg1 (c : Dev nD) : V m c main_arg1 = m ((c : Thread nD τ).loc main_arg1) := V_unwritten m c main_arg1 (by decide)
theorem V_main_arg2 (c : Dev nD) : V m c main_arg2 = m ((c : Thread nD τ).loc main_arg2) := V_unwritten m c main_arg2 (by decide)
theorem V_main_arg3 (c : Dev nD) : V m c main_arg3 = m ((c : Thread nD τ).loc main_arg3) := V_unwritten m c main_arg3 (by decide)
theorem V_main_arg4 (c : Dev nD) : V m c main_arg4 = m ((c : Thread nD τ).loc main_arg4) := V_unwritten m c main_arg4 (by decide)
theorem V_main_arg5 (c : Dev nD) : V m c main_arg5 = m ((c : Thread nD τ).loc main_arg5) := V_unwritten m c main_arg5 (by decide)
theorem V_main_arg6 (c : Dev nD) : V m c main_arg6 = m ((c : Thread nD τ).loc main_arg6) := V_unwritten m c main_arg6 (by decide)
theorem V_main_arg7 (c : Dev nD) : V m c main_arg7 = m ((c : Thread nD τ).loc main_arg7) := V_unwritten m c main_arg7 (by decide)
theorem V_main_arg8 (c : Dev nD) : V m c main_arg8 = m ((c : Thread nD τ).loc main_arg8) := V_unwritten m c main_arg8 (by decide)
theorem V_main_arg9 (c : Dev nD) : V m c main_arg9 = m ((c : Thread nD τ).loc main_arg9) := V_unwritten m c main_arg9 (by decide)
theorem V_main_arg10 (c : Dev nD) : V m c main_arg10 = m ((c : Thread nD τ).loc main_arg10) := V_unwritten m c main_arg10 (by decide)
theorem V_main_arg11 (c : Dev nD) : V m c main_arg11 = m ((c : Thread nD τ).loc main_arg11) := V_unwritten m c main_arg11 (by decide)
theorem V_main_arg12 (c : Dev nD) : V m c main_arg12 = m ((c : Thread nD τ).loc main_arg12) := V_unwritten m c main_arg12 (by decide)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, whether the pipeline fetched it there or the
    block index has not moved since it did, for any proof data over `V` whose body leaves the block in place. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, whether the pipeline fetched it there or the
    block index has not moved since it did, for any proof data over `V` whose body leaves the block in place. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, whether the pipeline fetched it there or the
    block index has not moved since it did, for any proof data over `V` whose body leaves the block in place. -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, whether the pipeline fetched it there or the
    block index has not moved since it did, for any proof data over `V` whose body leaves the block in place. -/
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, whether the pipeline fetched it there or the
    block index has not moved since it did, for any proof data over `V` whose body leaves the block in place. -/
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, whether the pipeline fetched it there or the
    block index has not moved since it did, for any proof data over `V` whose body leaves the block in place. -/
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, whether the pipeline fetched it there or the
    block index has not moved since it did, for any proof data over `V` whose body leaves the block in place. -/
theorem before6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from a frame run's -/

/-- From a run that ends with every window's array at what the proof data computes and every other unscoped buffer as
    the region found it: c_, h_ and x are input windows' arrays (an input's array ends at its entry contents), the other
    ten arguments are staged by no window; and the region found all thirteen as launched. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c)⟩) h

/-! ## The body's accesses: each buffer through its whole rectangle -/

abbrev rRows : Rect S2048x128 := Rect.unit (s := S2048x128) ![0, 0] S2048x128.size inb_S2048x128_S2048x128_0_0
abbrev rGateW : Rect S256x512 := Rect.unit (s := S256x512) ![0, 0] S256x512.size inb_S256x512_S256x512_0_0
abbrev rGateB : Rect S1x512 := Rect.unit (s := S1x512) ![0, 0] S1x512.size inb_S1x512_S1x512_0_0
abbrev rOutW : Rect S128x128 := Rect.unit (s := S128x128) ![0, 0] S128x128.size inb_S128x128_S128x128_0_0
abbrev rOutB : Rect S1x128 := Rect.unit (s := S1x128) ![0, 0] S1x128.size inb_S1x128_S1x128_0_0

/-! ## What the body leaves in each result window's buffer

  The arguments are the seven input blocks in window order: `x0` the rows of c_, `x1` of h_, `x2` of x, `x3` the gate
  weights, `x4` the gate bias, `x5` the output weights, `x6` the output bias. (The body's payloads take x first, then h,
  then c.) -/

/-- The new cell state's block: the one store into window 7. -/
def cellOut (x0 x1 x2 : Vec F S2048x128 .f32) (x3 : Vec F S256x512 .f32) (x4 : Vec F S1x512 .f32) : Vec F S2048x128 .f32 :=
  View.canon [⟨rRows, k0_pay2 (View.ld x2 rRows) (View.ld x1 rRows) (View.ld x0 rRows) (View.ld x3 rGateW) (View.ld x4 rGateB)⟩]

/-- The new hidden state's block: the one store into window 8. -/
def hiddenOut (x0 x1 x2 : Vec F S2048x128 .f32) (x3 : Vec F S256x512 .f32) (x4 : Vec F S1x512 .f32) : Vec F S2048x128 .f32 :=
  View.canon [⟨rRows, k0_pay3 (View.ld x2 rRows) (View.ld x1 rRows) (View.ld x0 rRows) (View.ld x3 rGateW) (View.ld x4 rGateB)⟩]

/-- The read-out's block: the one store into window 9. -/
def readOut (x0 x1 x2 : Vec F S2048x128 .f32) (x3 : Vec F S256x512 .f32) (x4 : Vec F S1x512 .f32) (x5 : Vec F S128x128 .f32) (x6 : Vec F S1x128 .f32) : Vec F S2048x128 .f32 :=
  View.canon [⟨rRows, k0_pay4 (View.ld x2 rRows) (View.ld x1 rRows) (View.ld x0 rRows) (View.ld x3 rGateW) (View.ld x4 rGateB) (View.ld x5 rOutW) (View.ld x6 rOutB)⟩]

/-- A store through the whole rectangle of a [2048,128] buffer covers the buffer. -/
theorem cover_rows (p0 : Vec F S2048x128 .f32) (y : S2048x128.Idx) :
    ∃ pc ∈ ([⟨rRows, p0⟩] : List (View.Piece (Elt F) S2048x128 .f32)), y ∈ pc.1.set :=
  View.cover_of_tiled [⟨rRows, p0⟩] S2048x128.size (by rfl) y

/-! ## The body's triple -/

set_option maxHeartbeats 4000000 in
/-- The body on whole staging memrefs — the seven inputs' at contents `x0` … `x6`, the three results' at anything — runs to
    its end leaving the inputs' as they were and the results' at `cellOut`, `hiddenOut`, `readOut` of the inputs'. -/
theorem sound_kernel (c : Dev nD) (E : Set ℕ) (i : grid0.Coords) (a0 : Memref sig .tc .vmem S2048x128 .f32) (ha0 : a0.IsWhole) (a1 : Memref sig .tc .vmem S2048x128 .f32) (ha1 : a1.IsWhole) (a2 : Memref sig .tc .vmem S2048x128 .f32) (ha2 : a2.IsWhole) (a3 : Memref sig .tc .vmem S256x512 .f32) (ha3 : a3.IsWhole) (a4 : Memref sig .tc .vmem S1x512 .f32) (ha4 : a4.IsWhole) (a5 : Memref sig .tc .vmem S128x128 .f32) (ha5 : a5.IsWhole) (a6 : Memref sig .tc .vmem S1x128 .f32) (ha6 : a6.IsWhole) (a7 : Memref sig .tc .vmem S2048x128 .f32) (ha7 : a7.IsWhole) (a8 : Memref sig .tc .vmem S2048x128 .f32) (ha8 : a8.IsWhole) (a9 : Memref sig .tc .vmem S2048x128 .f32) (ha9 : a9.IsWhole)
    (x0 x1 x2 : Vec F S2048x128 .f32) (x3 : Vec F S256x512 .f32) (x4 : Vec F S1x512 .f32) (x5 : Vec F S128x128 .f32) (x6 : Vec F S1x128 .f32) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6
        ∗ (∃ d, owns (c : Thread nD τ) a7 fullShare d) ∗ (∃ d, owns (c : Thread nD τ) a8 fullShare d) ∗ (∃ d, owns (c : Thread nD τ) a9 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6
            ∗ owns (c : Thread nD τ) a7 fullShare (cellOut x0 x1 x2 x3 x4) ∗ owns (c : Thread nD τ) a8 fullShare (hiddenOut x0 x1 x2 x3 x4) ∗ owns (c : Thread nD τ) a9 fullShare (readOut x0 x1 x2 x3 x4 x5 x6)) -∗ K ⟨⟩))
      ⊢ wp frame (wpE (defs₀ (F := F)) Variants.none c none) E (cc0_lstm_kernel i a0 ha0 a1 ha1 a2 ha2 a3 ha3 a4 ha4 a5 ha5 a6 ha6 a7 ha7 a8 ha8 a9 ha9) K := by
  simp only [cc0_lstm_kernel_eq_skeleton]; unfold cc0_lstm_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (cover_rows _)
  isplitl [H8]
  · iexists _; isplitr
    swap; · iexact H8
    ipureintro
    exact View.read_writes_eq_canon _ _ _ (cover_rows _)
  iexists _; isplitr
  swap; · iexact H9
  ipureintro
  exact View.read_writes_eq_canon _ _ _ (cover_rows _)

/-! ## The pipeline's proof data -/

/-- On core `c`: the arrays as the region finds them; after the body at point `t` each input's buffer still at its block
    and each result's at its function of the seven input blocks; the invariant the scoped rest and the generator
    register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => cellOut (iblk m c 0 t) (iblk m c 1 t) (iblk m c 2 t) (iblk m c 3 t) (iblk m c 4 t)
    | ⟨8, _⟩ => hiddenOut (iblk m c 0 t) (iblk m c 1 t) (iblk m c 2 t) (iblk m c 3 t) (iblk m c 4 t)
    | ⟨9, _⟩ => readOut (iblk m c 0 t) (iblk m c 1 t) (iblk m c 2 t) (iblk m c 3 t) (iblk m c 4 t) (iblk m c 5 t) (iblk m c 6 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = cellOut (iblk m c 0 t) (iblk m c 1 t) (iblk m c 2 t) (iblk m c 3 t) (iblk m c 4 t) := by dsimp only [dats]
theorem after8 (c : Dev nD) (t : Fin cfg0.N) : (dats m 0 c).after 8 t = hiddenOut (iblk m c 0 t) (iblk m c 1 t) (iblk m c 2 t) (iblk m c 3 t) (iblk m c 4 t) := by dsimp only [dats]
theorem after9 (c : Dev nD) (t : Fin cfg0.N) : (dats m 0 c).after 9 t = readOut (iblk m c 0 t) (iblk m c 1 t) (iblk m c 2 t) (iblk m c 3 t) (iblk m c 4 t) (iblk m c 5 t) (iblk m c 6 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d
theorem before5 (c : Dev nD) (t : Fin cfg0.N) (d) : (dats m 0 c).before 5 t d = iblk m c 5 t :=
  before5_of m (dats m 0 c) (A_eq m c 5) (after5 m c) t d
theorem before6 (c : Dev nD) (t : Fin cfg0.N) (d) : (dats m 0 c).before 6 t d = iblk m c 6 t :=
  before6_of m (dats m 0 c) (A_eq m c 6) (after6 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t))

/-- At any point the inputs' memrefs hold their blocks, so the body's triple applies; the invariant and the core's
    `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6]
  rw [show (dats m 0 c).Φ t.succ = (dats m 0 c).Φ t.castSucc from rfl,
    show (dats m 0 c).owesAt () t.succ = (dats m 0 c).owesAt () t.castSucc from rfl,
    after0, after1, after2, after3, after4, after5, after6, after7, after8, after9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel c Set.univ _ _ _ _ _ _ _ _ _ _ _ _ _ _ _ _ _ _ _ _ _ (iblk m c 0 t) (iblk m c 1 t) (iblk m c 2 t) (iblk m c 3 t) (iblk m c 4 t) (iblk m c 5 t) (iblk m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, and every final state has each window's array at what the proof
    data computes and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame of `KernelIdeal`, at any `F`. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  frame_of m ρ (dats m) (A_eq m) (run_main m ρ)

end Cert.KernelIdeal.FrameRun

end
-- ==== Proof.CellSpec.lean ====
/-
  The LSTM cell, one row at a time, on the extended reals.

  A row carries the previous cell state `c`, the previous hidden state `h` and the input `x`, 128 entries each. With
  `W` the stacked gate weights as a [256,512] matrix (rows 0–127 act on x, rows 128–255 on h; columns 0–127 are the
  candidate gate, 128–255 the input gate, 256–383 the forget gate, 384–511 the output gate), `b` the stacked gate
  bias, `Wo` the [128,128] read-out weights and `bo` the read-out bias:

      gate j    = Σ_q [x | h]_q · W_{q,j} + b_j
      cell k    = σ(gate (256+k)) · c_k + σ(gate (128+k)) · tanh(gate k)
      hidden k  = σ(gate (384+k)) · tanh(cell k)
      readout k = σ(Σ_q hidden q · Wo_{q,k} + bo_k)

  where σ x = 1 / (1 + e⁻ˣ) and tanh are the extended-real functions (`Ideal.logistic`, `Ideal.tanh`). Every result entry
  of either program is one of `cell`, `hidden`, `readout` at the entry's row; nothing here depends on how many rows
  there are or how they are tiled.
-/
import Idealize.ShloMosaic.PureOps.Ideal
import Mathlib.Algebra.BigOperators.Fin

noncomputable section

namespace Cert.CellSpec

open Idealize.ShloMosaic

/-- A row of the concatenation [x | h]: entries 0–127 are x's, entries 128–255 are h's. -/
def xh (x h : Fin 128 → EReal) (q : Fin 256) : EReal :=
  if hq : q.val < 128 then x ⟨q.val, hq⟩ else h ⟨q.val - 128, by have := q.isLt; omega⟩

theorem xh_left (x h : Fin 128 → EReal) (q : Fin 256) (hq : q.val < 128) : xh x h q = x ⟨q.val, hq⟩ := dif_pos hq

theorem xh_right (x h : Fin 128 → EReal) (q : Fin 256) (hq : 128 ≤ q.val) :
    xh x h q = h ⟨q.val - 128, by have := q.isLt; omega⟩ := dif_neg (Nat.not_lt.2 hq)

/-- Gate pre-activation `j` of a row. -/
def gate (x h : Fin 128 → EReal) (W : Fin 256 → Fin 512 → EReal) (b : Fin 512 → EReal) (j : Fin 512) : EReal :=
  (∑ q : Fin 256, xh x h q * W q j) + b j

/-- The column of gate `g` (0 candidate, 1 input, 2 forget, 3 output) at entry `k`. -/
def col (g : Fin 4) (k : Fin 128) : Fin 512 := ⟨128 * g.val + k.val, by have := g.isLt; have := k.isLt; omega⟩

/-- The new cell state: the forget gate times the old state plus the input gate times the candidate. -/
def cell (c x h : Fin 128 → EReal) (W : Fin 256 → Fin 512 → EReal) (b : Fin 512 → EReal) (k : Fin 128) : EReal :=
  Ideal.logistic (gate x h W b (col 2 k)) * c k + Ideal.logistic (gate x h W b (col 1 k)) * Ideal.tanh (gate x h W b (col 0 k))

/-- The new hidden state: the output gate times tanh of the new cell state. -/
def hidden (c x h : Fin 128 → EReal) (W : Fin 256 → Fin 512 → EReal) (b : Fin 512 → EReal) (k : Fin 128) : EReal :=
  Ideal.logistic (gate x h W b (col 3 k)) * Ideal.tanh (cell c x h W b k)

/-- The read-out: σ of the new hidden state through the read-out weights, plus the read-out bias. -/
def readout (c x h : Fin 128 → EReal) (W : Fin 256 → Fin 512 → EReal) (b : Fin 512 → EReal)
    (Wo : Fin 128 → Fin 128 → EReal) (bo : Fin 128 → EReal) (k : Fin 128) : EReal :=
  Ideal.logistic ((∑ q : Fin 128, hidden c x h W b q * Wo q k) + bo k)

end Cert.CellSpec

end
-- ==== Proof.KernelIdealPayload.lean ====
/-
  What the kernel body stores, entry by entry, on the extended reals.

  The body's three stored values are pure functions of the seven blocks it loads: the rows of x, h and c, the gate
  weights [256,512], the gate bias row [1,512], the read-out weights [128,128] and the read-out bias row [1,128]. Read at
  entry (p, k) of a block of 2048 rows they are the row-wise functions of the specification at row p:

    * the matrix product into a zero accumulator is the sum over the contracted index of left (p, q) · right (q, j);
    * a change of float format is the identity, and so is a cast of a vector to its own shape;
    * row p of [x | h] is x's row p followed by h's row p;
    * a bias row [1, n] broadcast to [2048, n] reads its entry (0, j) at every row;
    * the four gates are four slices of 128 columns, at column offsets 0, 128, 256, 384.

  Stated over variables of the literal block types, so that it applies to any blocks.
-/
import proofs.«162901_j54546084659583_1_alg».proof.Proof.Gen.KernelIdeal.Skeleton
import proofs.«162901_j54546084659583_1_alg».proof.Proof.CellSpec
import Idealize.ShloMosaic.Lib.Pipeline.Value
import Idealize.ShloMosaic.Lib.ValueIdx
import Idealize.ShloMosaic.PureOps.Ideal.Laws

noncomputable section

namespace Cert.KernelIdeal.Payload

open Cert.KernelIdeal Cert.KernelIdeal.Gen Idealize.ShloMosaic Idealize.ShloMosaic.ValueIdx Idealize.ShloMosaic.Pipeline Cert.CellSpec

/-! ### The [2048,256] · [256,512] product, read at an index -/

theorem gateDot_lhs0 (i : S2048x512.Idx) (q : dot_S2048x256_S256x512_S2048x512_1_0_0_1_n_n.contr.Idx) : (dot_S2048x256_S256x512_S2048x512_1_0_0_1_n_n.lhsIdx i q 0).val = (i 0).val := by
  unfold DotDims.lhsIdx
  rw [dif_neg (show ¬(0 : Fin S2048x256.rank) ∈ dot_S2048x256_S256x512_S2048x512_1_0_0_1_n_n.lhsBatch by decide), dif_pos (show (0 : Fin S2048x256.rank) ∈ dot_S2048x256_S256x512_S2048x512_1_0_0_1_n_n.lhsNonContracting by decide)]
  rfl
theorem gateDot_lhs1 (i : S2048x512.Idx) (q : dot_S2048x256_S256x512_S2048x512_1_0_0_1_n_n.contr.Idx) : (dot_S2048x256_S256x512_S2048x512_1_0_0_1_n_n.lhsIdx i q 1).val = (q ⟨0, by decide⟩).val :=
  dot_S2048x256_S256x512_S2048x512_1_0_0_1_n_n.lhsIdx_val_of_single rfl i q
theorem gateDot_rhs0 (i : S2048x512.Idx) (q : dot_S2048x256_S256x512_S2048x512_1_0_0_1_n_n.contr.Idx) : (dot_S2048x256_S256x512_S2048x512_1_0_0_1_n_n.rhsIdx i q 0).val = (q ⟨0, by decide⟩).val :=
  dot_S2048x256_S256x512_S2048x512_1_0_0_1_n_n.rhsIdx_val_of_single rfl i q
theorem gateDot_rhs1 (i : S2048x512.Idx) (q : dot_S2048x256_S256x512_S2048x512_1_0_0_1_n_n.contr.Idx) : (dot_S2048x256_S256x512_S2048x512_1_0_0_1_n_n.rhsIdx i q 1).val = (i 1).val := by
  unfold DotDims.rhsIdx
  rw [dif_neg (show ¬(1 : Fin S256x512.rank) ∈ dot_S2048x256_S256x512_S2048x512_1_0_0_1_n_n.rhsBatch by decide), dif_pos (show (1 : Fin S256x512.rank) ∈ dot_S2048x256_S256x512_S2048x512_1_0_0_1_n_n.rhsNonContracting by decide)]
  rfl

/-- Into a zero accumulator, entry (p, j) of the product is the sum over the contracted index q of left (p, q) times right (q, j). -/
theorem gateDot_apply (l : FVec Ideal S2048x256 .bf16) (r : FVec Ideal S256x512 .bf16) (p : Fin 2048) (j : Fin 512) :
    matmul dot_S2048x256_S256x512_S2048x512_1_0_0_1_n_n none l r (constant (F := Ideal) S2048x512 .f32 0x00000000#32) (ix2 p j)
      = ∑ q : Fin 256, l (ix2 p q) * r (ix2 q j) := by
  simp only [matmul]
  rw [Ideal.matmul_constant_zero_apply, ← Equiv.sum_comp (contrEquiv1 dot_S2048x256_S256x512_S2048x512_1_0_0_1_n_n 256 rfl rfl).symm]
  refine Finset.sum_congr rfl fun q _ => ?_
  have hk := contrEquiv1_symm_val dot_S2048x256_S256x512_S2048x512_1_0_0_1_n_n 256 rfl rfl q
  have el : dot_S2048x256_S256x512_S2048x512_1_0_0_1_n_n.lhsIdx (ix2 p j) ((contrEquiv1 dot_S2048x256_S256x512_S2048x512_1_0_0_1_n_n 256 rfl rfl).symm q) = ix2 p q := funext fun a => Fin.ext (by
    match a with
    | ⟨0, _⟩ => exact gateDot_lhs0 _ _
    | ⟨1, _⟩ => exact (gateDot_lhs1 _ _).trans hk)
  have er : dot_S2048x256_S256x512_S2048x512_1_0_0_1_n_n.rhsIdx (ix2 p j) ((contrEquiv1 dot_S2048x256_S256x512_S2048x512_1_0_0_1_n_n 256 rfl rfl).symm q) = ix2 q j := funext fun a => Fin.ext (by
    match a with
    | ⟨0, _⟩ => exact (gateDot_rhs0 _ _).trans hk
    | ⟨1, _⟩ => exact gateDot_rhs1 _ _)
  rw [el, er]

/-! ### The [2048,128] · [128,128] product, read at an index -/

theorem outDot_lhs0 (i : S2048x128.Idx) (q : dot_S2048x128_S128x128_S2048x128_1_0_0_1_n_n.contr.Idx) : (dot_S2048x128_S128x128_S2048x128_1_0_0_1_n_n.lhsIdx i q 0).val = (i 0).val := by
  unfold DotDims.lhsIdx
  rw [dif_neg (show ¬(0 : Fin S2048x128.rank) ∈ dot_S2048x128_S128x128_S2048x128_1_0_0_1_n_n.lhsBatch by decide), dif_pos (show (0 : Fin S2048x128.rank) ∈ dot_S2048x128_S128x128_S2048x128_1_0_0_1_n_n.lhsNonContracting by decide)]
  rfl
theorem outDot_lhs1 (i : S2048x128.Idx) (q : dot_S2048x128_S128x128_S2048x128_1_0_0_1_n_n.contr.Idx) : (dot_S2048x128_S128x128_S2048x128_1_0_0_1_n_n.lhsIdx i q 1).val = (q ⟨0, by decide⟩).val :=
  dot_S2048x128_S128x128_S2048x128_1_0_0_1_n_n.lhsIdx_val_of_single rfl i q
theorem outDot_rhs0 (i : S2048x128.Idx) (q : dot_S2048x128_S128x128_S2048x128_1_0_0_1_n_n.contr.Idx) : (dot_S2048x128_S128x128_S2048x128_1_0_0_1_n_n.rhsIdx i q 0).val = (q ⟨0, by decide⟩).val :=
  dot_S2048x128_S128x128_S2048x128_1_0_0_1_n_n.rhsIdx_val_of_single rfl i q
theorem outDot_rhs1 (i : S2048x128.Idx) (q : dot_S2048x128_S128x128_S2048x128_1_0_0_1_n_n.contr.Idx) : (dot_S2048x128_S128x128_S2048x128_1_0_0_1_n_n.rhsIdx i q 1).val = (i 1).val := by
  unfold DotDims.rhsIdx
  rw [dif_neg (show ¬(1 : Fin S128x128.rank) ∈ dot_S2048x128_S128x128_S2048x128_1_0_0_1_n_n.rhsBatch by decide), dif_pos (show (1 : Fin S128x128.rank) ∈ dot_S2048x128_S128x128_S2048x128_1_0_0_1_n_n.rhsNonContracting by decide)]
  rfl

/-- Into a zero accumulator, entry (p, j) of the product is the sum over the contracted index q of left (p, q) times right (q, j). -/
theorem outDot_apply (l : FVec Ideal S2048x128 .bf16) (r : FVec Ideal S128x128 .bf16) (p : Fin 2048) (j : Fin 128) :
    matmul dot_S2048x128_S128x128_S2048x128_1_0_0_1_n_n none l r (constant (F := Ideal) S2048x128 .f32 0x00000000#32) (ix2 p j)
      = ∑ q : Fin 128, l (ix2 p q) * r (ix2 q j) := by
  simp only [matmul]
  rw [Ideal.matmul_constant_zero_apply, ← Equiv.sum_comp (contrEquiv1 dot_S2048x128_S128x128_S2048x128_1_0_0_1_n_n 128 rfl rfl).symm]
  refine Finset.sum_congr rfl fun q _ => ?_
  have hk := contrEquiv1_symm_val dot_S2048x128_S128x128_S2048x128_1_0_0_1_n_n 128 rfl rfl q
  have el : dot_S2048x128_S128x128_S2048x128_1_0_0_1_n_n.lhsIdx (ix2 p j) ((contrEquiv1 dot_S2048x128_S128x128_S2048x128_1_0_0_1_n_n 128 rfl rfl).symm q) = ix2 p q := funext fun a => Fin.ext (by
    match a with
    | ⟨0, _⟩ => exact outDot_lhs0 _ _
    | ⟨1, _⟩ => exact (outDot_lhs1 _ _).trans hk)
  have er : dot_S2048x128_S128x128_S2048x128_1_0_0_1_n_n.rhsIdx (ix2 p j) ((contrEquiv1 dot_S2048x128_S128x128_S2048x128_1_0_0_1_n_n 128 rfl rfl).symm q) = ix2 q j := funext fun a => Fin.ext (by
    match a with
    | ⟨0, _⟩ => exact (outDot_rhs0 _ _).trans hk
    | ⟨1, _⟩ => exact outDot_rhs1 _ _)
  rw [el, er]

/-! ### A row of the in-register concatenation [x | h] -/

/-- Row p of the two blocks joined along the columns: columns 0–127 are x's row p, columns 128–255 are h's. -/
theorem concat_row (vx vh : Vec Ideal S2048x128 .f32) (p : Fin 2048) (q : Fin 256) :
    concatenate S2048x256 1 [⟨S2048x128, vx⟩, ⟨S2048x128, vh⟩] concatenates_S2048x128_S2048x128_S2048x256_d1 (ix2 p q)
      = xh (fun k => vx (ix2 p k)) (fun k => vh (ix2 p k)) q := by
  by_cases hq : q.val < 128
  · rw [xh_left _ _ q hq]
    exact concatenate_pair_apply_left 1 vx vh _ (ix2 p q) rfl (ix2 p ⟨q.val, hq⟩)
      (fun b => match b with | ⟨0, _⟩ => rfl | ⟨1, _⟩ => rfl)
  · have hq' : 128 ≤ q.val := Nat.not_lt.1 hq
    rw [xh_right _ _ q hq']
    exact concatenate_pair_apply_right 1 vx vh _ (ix2 p q) rfl rfl (ix2 p ⟨q.val - 128, by have := q.isLt; omega⟩)
      (fun b hb => match b with | ⟨0, _⟩ => rfl | ⟨1, _⟩ => absurd rfl hb)
      (by show (q.val - 128) + 128 = q.val; omega)

/-! ### The gate pre-activations -/

/-- Entry (p, j) of the block of gate pre-activations is `gate j` of row p: the product with the gate weights read as a
    sum (a change of float format is the identity on the extended reals, and the weights' cast to their own shape is the
    identity), plus the bias row broadcast down the rows. -/
theorem gates_apply (vx vh : Vec Ideal S2048x128 .f32) (vW : Vec Ideal S256x512 .f32) (vB : Vec Ideal S1x512 .f32) (p : Fin 2048) (j : Fin 512) :
    k0_pay1 (F := Ideal) vx vh vW vB (ix2 p j)
      = gate (fun k => vx (ix2 p k)) (fun k => vh (ix2 p k)) (fun q j => vW (ix2 q j)) (fun j => vB (ix2 0 j)) j := by
  unfold k0_pay1 gate
  rw [addf_apply, gateDot_apply, shapeCast_self, shapeCast_self]
  congr 1
  · refine Finset.sum_congr rfl fun q _ => ?_
    rw [truncf_apply, truncf_apply, concat_row]
  · exact broadcastTo_apply vB _ (ix2 p j) (ix2 0 j) (fun a => match a with
      | ⟨0, _⟩ => by show (0 : Nat) = if (1 : Nat) = 1 then 0 else _; rw [if_pos rfl]
      | ⟨1, _⟩ => by show j.val = if (512 : Nat) = 1 then 0 else _; rw [if_neg (by decide)]; rfl)

/-! ### The four gates' columns: a slice of 128 columns at offset 128·g read at (p, k) is column `col g k` -/

theorem slice0 (v : FVec Ideal S2048x512 .f32) (p : Fin 2048) (k : Fin 128) :
    extractStridedSlice S2048x128 ![0, 0] v slices_S2048x512_o0_0_S2048x128 (ix2 p k) = v (ix2 p (col 0 k)) :=
  extractStridedSlice_apply _ v slices_S2048x512_o0_0_S2048x128 (ix2 p k) (ix2 p (col 0 k)) (fun a => match a with
    | ⟨0, _⟩ => by show p.val = 0 + p.val; omega
    | ⟨1, _⟩ => by show 128 * 0 + k.val = 0 + k.val; omega)

theorem slice1 (v : FVec Ideal S2048x512 .f32) (p : Fin 2048) (k : Fin 128) :
    extractStridedSlice S2048x128 ![0, 128] v slices_S2048x512_o0_128_S2048x128 (ix2 p k) = v (ix2 p (col 1 k)) :=
  extractStridedSlice_apply _ v slices_S2048x512_o0_128_S2048x128 (ix2 p k) (ix2 p (col 1 k)) (fun a => match a with
    | ⟨0, _⟩ => by show p.val = 0 + p.val; omega
    | ⟨1, _⟩ => by show 128 * 1 + k.val = 128 + k.val; omega)

theorem slice2 (v : FVec Ideal S2048x512 .f32) (p : Fin 2048) (k : Fin 128) :
    extractStridedSlice S2048x128 ![0, 256] v slices_S2048x512_o0_256_S2048x128 (ix2 p k) = v (ix2 p (col 2 k)) :=
  extractStridedSlice_apply _ v slices_S2048x512_o0_256_S2048x128 (ix2 p k) (ix2 p (col 2 k)) (fun a => match a with
    | ⟨0, _⟩ => by show p.val = 0 + p.val; omega
    | ⟨1, _⟩ => by show 128 * 2 + k.val = 256 + k.val; omega)

theorem slice3 (v : FVec Ideal S2048x512 .f32) (p : Fin 2048) (k : Fin 128) :
    extractStridedSlice S2048x128 ![0, 384] v slices_S2048x512_o0_384_S2048x128 (ix2 p k) = v (ix2 p (col 3 k)) :=
  extractStridedSlice_apply _ v slices_S2048x512_o0_384_S2048x128 (ix2 p k) (ix2 p (col 3 k)) (fun a => match a with
    | ⟨0, _⟩ => by show p.val = 0 + p.val; omega
    | ⟨1, _⟩ => by show 128 * 3 + k.val = 384 + k.val; omega)

/-! ### The three stored blocks, entry by entry -/

/-- Entry (p, k) of the stored cell-state block is `cell k` of row p. -/
theorem cell_pay (vx vh vc : Vec Ideal S2048x128 .f32) (vW : Vec Ideal S256x512 .f32) (vB : Vec Ideal S1x512 .f32) (p : Fin 2048) (k : Fin 128) :
    k0_pay2 (F := Ideal) vx vh vc vW vB (ix2 p k)
      = cell (fun k => vc (ix2 p k)) (fun k => vx (ix2 p k)) (fun k => vh (ix2 p k)) (fun q j => vW (ix2 q j)) (fun j => vB (ix2 0 j)) k := by
  unfold k0_pay2 cell
  rw [addf_apply, mulf_apply, mulf_apply]
  show Ideal.logistic (extractStridedSlice S2048x128 ![0, 256] (k0_pay1 (F := Ideal) vx vh vW vB) slices_S2048x512_o0_256_S2048x128 (ix2 p k)) * vc (ix2 p k)
      + Ideal.logistic (extractStridedSlice S2048x128 ![0, 128] (k0_pay1 (F := Ideal) vx vh vW vB) slices_S2048x512_o0_128_S2048x128 (ix2 p k))
        * Ideal.tanh (extractStridedSlice S2048x128 ![0, 0] (k0_pay1 (F := Ideal) vx vh vW vB) slices_S2048x512_o0_0_S2048x128 (ix2 p k)) = _
  rw [slice2, slice1, slice0, gates_apply, gates_apply, gates_apply]

/-- Entry (p, k) of the stored hidden-state block is `hidden k` of row p. -/
theorem hidden_pay (vx vh vc : Vec Ideal S2048x128 .f32) (vW : Vec Ideal S256x512 .f32) (vB : Vec Ideal S1x512 .f32) (p : Fin 2048) (k : Fin 128) :
    k0_pay3 (F := Ideal) vx vh vc vW vB (ix2 p k)
      = CellSpec.hidden (fun k => vc (ix2 p k)) (fun k => vx (ix2 p k)) (fun k => vh (ix2 p k)) (fun q j => vW (ix2 q j)) (fun j => vB (ix2 0 j)) k := by
  unfold k0_pay3 CellSpec.hidden
  rw [mulf_apply]
  show Ideal.logistic (extractStridedSlice S2048x128 ![0, 384] (k0_pay1 (F := Ideal) vx vh vW vB) slices_S2048x512_o0_384_S2048x128 (ix2 p k))
      * Ideal.tanh (k0_pay2 (F := Ideal) vx vh vc vW vB (ix2 p k)) = _
  rw [slice3, gates_apply, cell_pay]

/-- Entry (p, k) of the stored read-out block is `readout k` of row p: the second product, of the hidden-state block with
    the read-out weights, again a sum over the contracted index, plus the read-out bias row broadcast down the rows. -/
theorem readout_pay (vx vh vc : Vec Ideal S2048x128 .f32) (vW : Vec Ideal S256x512 .f32) (vB : Vec Ideal S1x512 .f32)
    (vWo : Vec Ideal S128x128 .f32) (vBo : Vec Ideal S1x128 .f32) (p : Fin 2048) (k : Fin 128) :
    k0_pay4 (F := Ideal) vx vh vc vW vB vWo vBo (ix2 p k)
      = readout (fun k => vc (ix2 p k)) (fun k => vx (ix2 p k)) (fun k => vh (ix2 p k)) (fun q j => vW (ix2 q j)) (fun j => vB (ix2 0 j))
          (fun q k => vWo (ix2 q k)) (fun k => vBo (ix2 0 k)) k := by
  unfold k0_pay4 readout
  show Ideal.logistic (addf (matmul dot_S2048x128_S128x128_S2048x128_1_0_0_1_n_n none
        (truncf .bf16 (k0_pay3 (F := Ideal) vx vh vc vW vB) bitsLt_bf16_f32)
        (truncf .bf16 (shapeCast S128x128 vWo shapeCasts_S128x128_S128x128) bitsLt_bf16_f32)
        (constant (F := Ideal) S2048x128 .f32 0x00000000#32))
      (broadcastTo S2048x128 (shapeCast S1x128 vBo shapeCasts_S1x128_S1x128) broadcasts_S1x128_S2048x128) (ix2 p k)) = _
  rw [addf_apply, outDot_apply, shapeCast_self, shapeCast_self]
  congr 2
  · refine Finset.sum_congr rfl fun q _ => ?_
    rw [truncf_apply, truncf_apply, hidden_pay]
  · exact broadcastTo_apply vBo _ (ix2 p k) (ix2 0 k) (fun a => match a with
      | ⟨0, _⟩ => by show (0 : Nat) = if (1 : Nat) = 1 then 0 else _; rw [if_pos rfl]
      | ⟨1, _⟩ => by show k.val = if (128 : Nat) = 1 then 0 else _; rw [if_neg (by decide)]; rfl)

end Cert.KernelIdeal.Payload

end
-- ==== Proof.KernelIdealValue.lean ====
/-
  The idealized kernel's three result arrays after the run, each as one function of the arrays the region finds.

  The region's 128 points tile the 262144 rows in blocks of 2048: at point t the row windows (c_, h_, x and the three
  results) sit at block row t, and the four host-built arrays (gate weights, gate bias row, read-out weights, read-out bias
  row) are one block each. So row p of a row window's block at point t is row 2048·t + p of its array, and what point t
  writes back to a result window is block t of ONE whole-array function: entry (r, k) is the specification's `cell`,
  `hidden` or `readout` at entry k of row r. The blocks cover every row (row r lies in block r / 2048), so each result
  array ends at that function, whatever the order the points run in.
-/
import proofs.«162901_j54546084659583_1_alg».proof.Proof.KernelIdealFrame
import proofs.«162901_j54546084659583_1_alg».proof.Proof.KernelIdealPayload
import proofs.«162901_j54546084659583_1_alg».proof.Proof.CellSpec
import Idealize.ShloMosaic.Lib.Pipeline.Value
import Idealize.ShloMosaic.Lib.ValueIdx

set_option maxRecDepth 16384

noncomputable section

namespace Cert.KernelIdeal.CellValue

open Cert.KernelIdeal Cert.KernelIdeal.Gen Cert.KernelIdeal.FrameRun Cert.KernelIdeal.Payload Cert.CellSpec
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-! ### The index maps over the grid -/

/-- At point t the three row windows and the three result windows sit at block row t, block column 0; the four
    host-built arrays are one block each, at block (0, 0). -/
theorem idx_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = t.val ∧ win0_7.index t (1 : Fin 2) = 0)
    ∧ (win0_8.index t (0 : Fin 2) = t.val ∧ win0_8.index t (1 : Fin 2) = 0)
    ∧ (win0_9.index t (0 : Fin 2) = t.val ∧ win0_9.index t (1 : Fin 2) = 0) :=
  (by decide +kernel : ∀ t : Fin grid0.N, _)

theorem t_lt (t : Fin cfg0.N) : t.val < 128 := lt_of_lt_of_eq t.isLt N_0

/-- Row p of block t is row 2048·t + p of the array. -/
def rowAt (t : Fin cfg0.N) (p : Fin 2048) : Fin 262144 := ⟨2048 * t.val + p.val, by have := t_lt t; have := p.isLt; omega⟩

/-! ### The input blocks as rows of the arrays -/

/-- Row p of window 0's block at point t is row 2048·t + p of argument 0. -/
theorem cRows_apply (c : Dev nD) (t : Fin cfg0.N) (p : Fin 2048) (k : Fin 128) :
    (iblk m c 0 t : Vec Ideal S2048x128 .f32) (ix2 p k) = ((m ((c : Thread nD τ).loc main_arg0)) : S262144x128.Idx → EReal) (ix2 (rowAt t p) k) := by
  obtain ⟨⟨h0, h1⟩, -⟩ := idx_facts t
  unfold iblk
  rw [View.read_apply]
  show V m c main_arg0 _ = _
  rw [V_main_arg0]
  congr 1
  funext a
  apply Fin.ext
  match a with
  | ⟨0, _⟩ => show win0_0.index t 0 * 2048 + 1 * p.val = 2048 * t.val + p.val; rw [h0]; omega
  | ⟨1, _⟩ => show win0_0.index t 1 * 128 + 1 * k.val = k.val; rw [h1]; omega

/-- Row p of window 1's block at point t is row 2048·t + p of argument 1. -/
theorem hRows_apply (c : Dev nD) (t : Fin cfg0.N) (p : Fin 2048) (k : Fin 128) :
    (iblk m c 1 t : Vec Ideal S2048x128 .f32) (ix2 p k) = ((m ((c : Thread nD τ).loc main_arg1)) : S262144x128.Idx → EReal) (ix2 (rowAt t p) k) := by
  obtain ⟨-, ⟨h0, h1⟩, -⟩ := idx_facts t
  unfold iblk
  rw [View.read_apply]
  show V m c main_arg1 _ = _
  rw [V_main_arg1]
  congr 1
  funext a
  apply Fin.ext
  match a with
  | ⟨0, _⟩ => show win0_1.index t 0 * 2048 + 1 * p.val = 2048 * t.val + p.val; rw [h0]; omega
  | ⟨1, _⟩ => show win0_1.index t 1 * 128 + 1 * k.val = k.val; rw [h1]; omega

/-- Row p of window 2's block at point t is row 2048·t + p of argument 2. -/
theorem xRows_apply (c : Dev nD) (t : Fin cfg0.N) (p : Fin 2048) (k : Fin 128) :
    (iblk m c 2 t : Vec Ideal S2048x128 .f32) (ix2 p k) = ((m ((c : Thread nD τ).loc main_arg2)) : S262144x128.Idx → EReal) (ix2 (rowAt t p) k) := by
  obtain ⟨-, -, ⟨h0, h1⟩, -⟩ := idx_facts t
  unfold iblk
  rw [View.read_apply]
  show V m c main_arg2 _ = _
  rw [V_main_arg2]
  congr 1
  funext a
  apply Fin.ext
  match a with
  | ⟨0, _⟩ => show win0_2.index t 0 * 2048 + 1 * p.val = 2048 * t.val + p.val; rw [h0]; omega
  | ⟨1, _⟩ => show win0_2.index t 1 * 128 + 1 * k.val = k.val; rw [h1]; omega

/-- Window 3's one block is its whole array. -/
theorem gateW_apply (c : Dev nD) (t : Fin cfg0.N) (q : Fin 256) (j : Fin 512) :
    (iblk m c 3 t : Vec Ideal S256x512 .f32) (ix2 q j) = (V m c main_v1 : S256x512.Idx → EReal) (ix2 q j) := by
  obtain ⟨-, -, -, ⟨h0, h1⟩, -⟩ := idx_facts t
  unfold iblk
  rw [View.read_apply]
  show V m c main_v1 _ = V m c main_v1 _
  congr 1
  funext a
  apply Fin.ext
  match a with
  | ⟨0, _⟩ => show win0_3.index t 0 * 256 + 1 * q.val = q.val; rw [h0]; omega
  | ⟨1, _⟩ => show win0_3.index t 1 * 512 + 1 * j.val = j.val; rw [h1]; omega

/-- Window 4's one block is its whole array. -/
theorem gateB_apply (c : Dev nD) (t : Fin cfg0.N) (z : Fin 1) (j : Fin 512) :
    (iblk m c 4 t : Vec Ideal S1x512 .f32) (ix2 z j) = (V m c main_v3 : S1x512.Idx → EReal) (ix2 z j) := by
  obtain ⟨-, -, -, -, ⟨h0, h1⟩, -⟩ := idx_facts t
  unfold iblk
  rw [View.read_apply]
  show V m c main_v3 _ = V m c main_v3 _
  congr 1
  funext a
  apply Fin.ext
  match a with
  | ⟨0, _⟩ => show win0_4.index t 0 * 1 + 1 * z.val = z.val; rw [h0]; omega
  | ⟨1, _⟩ => show win0_4.index t 1 * 512 + 1 * j.val = j.val; rw [h1]; omega

/-- Window 5's one block is its whole array. -/
theorem outW_apply (c : Dev nD) (t : Fin cfg0.N) (q : Fin 128) (k : Fin 128) :
    (iblk m c 5 t : Vec Ideal S128x128 .f32) (ix2 q k) = (V m c main_v4 : S128x128.Idx → EReal) (ix2 q k) := by
  obtain ⟨-, -, -, -, -, ⟨h0, h1⟩, -⟩ := idx_facts t
  unfold iblk
  rw [View.read_apply]
  show V m c main_v4 _ = V m c main_v4 _
  congr 1
  funext a
  apply Fin.ext
  match a with
  | ⟨0, _⟩ => show win0_5.index t 0 * 128 + 1 * q.val = q.val; rw [h0]; omega
  | ⟨1, _⟩ => show win0_5.index t 1 * 128 + 1 * k.val = k.val; rw [h1]; omega

/-- Window 6's one block is its whole array. -/
theorem outB_apply (c : Dev nD) (t : Fin cfg0.N) (z : Fin 1) (k : Fin 128) :
    (iblk m c 6 t : Vec Ideal S1x128 .f32) (ix2 z k) = (V m c main_v5 : S1x128.Idx → EReal) (ix2 z k) := by
  obtain ⟨-, -, -, -, -, -, ⟨h0, h1⟩, -⟩ := idx_facts t
  unfold iblk
  rw [View.read_apply]
  show V m c main_v5 _ = V m c main_v5 _
  congr 1
  funext a
  apply Fin.ext
  match a with
  | ⟨0, _⟩ => show win0_6.index t 0 * 1 + 1 * z.val = z.val; rw [h0]; omega
  | ⟨1, _⟩ => show win0_6.index t 1 * 128 + 1 * k.val = k.val; rw [h1]; omega

/-! ### The three results as whole-array functions -/

/-- The new cell state: entry (r, k) is `cell k` of row r. -/
def cellArr (ac ah ax : S262144x128.Idx → EReal) (W : S256x512.Idx → EReal) (B : S1x512.Idx → EReal) : S262144x128.Idx → EReal :=
  fun i => cell (fun k => ac (ix2 (i 0) k)) (fun k => ax (ix2 (i 0) k)) (fun k => ah (ix2 (i 0) k)) (fun q j => W (ix2 q j)) (fun j => B (ix2 0 j)) (i 1)

/-- The new hidden state: entry (r, k) is `hidden k` of row r. -/
def hiddenArr (ac ah ax : S262144x128.Idx → EReal) (W : S256x512.Idx → EReal) (B : S1x512.Idx → EReal) : S262144x128.Idx → EReal :=
  fun i => CellSpec.hidden (fun k => ac (ix2 (i 0) k)) (fun k => ax (ix2 (i 0) k)) (fun k => ah (ix2 (i 0) k)) (fun q j => W (ix2 q j)) (fun j => B (ix2 0 j)) (i 1)

/-- The read-out: entry (r, k) is `readout k` of row r. -/
def readoutArr (ac ah ax : S262144x128.Idx → EReal) (W : S256x512.Idx → EReal) (B : S1x512.Idx → EReal)
    (Wo : S128x128.Idx → EReal) (Bo : S1x128.Idx → EReal) : S262144x128.Idx → EReal :=
  fun i => readout (fun k => ac (ix2 (i 0) k)) (fun k => ax (ix2 (i 0) k)) (fun k => ah (ix2 (i 0) k)) (fun q j => W (ix2 q j)) (fun j => B (ix2 0 j))
    (fun q k => Wo (ix2 q k)) (fun k => Bo (ix2 0 k)) (i 1)

/-! ### What each point writes back -/

/-- What point t writes back to result window 7 is block t of the whole-array function: entry (p, k) of the stored block is
    the row-wise function of row p of the input blocks, which are rows 2048·t + p of the arrays. -/
theorem flushed7_eq (c : Dev nD) (t : Fin cfg0.N) :
    (dats m 0 c).flushed 7 t = ((cfg0.win 7).blk t).view.read (Elt Ideal) (cellArr (m ((c : Thread nD τ).loc main_arg0)) (m ((c : Thread nD τ).loc main_arg1)) (m ((c : Thread nD τ).loc main_arg2)) (V m c main_v1) (V m c main_v3)) := by
  obtain ⟨-, -, -, -, -, -, -, ⟨h0, h1⟩, -⟩ := idx_facts t
  show (cfg0.win 7).cut (grid0.coords t) ((dats m 0 c).after 7 t) = _
  rw [after7]
  unfold cellOut
  rw [View.canon_unit_zero hz]
  simp only [View.ld_unit_zero (S := S2048x128) hz, View.ld_unit_zero (S := S256x512) hz, View.ld_unit_zero (S := S1x512) hz]
  funext y
  obtain ⟨p, k, rfl⟩ : ∃ (p : Fin 2048) (k : Fin 128), y = ix2 p k := ⟨y 0, y 1, eq_ix2 y⟩
  refine (cell_pay (iblk m c 2 t) (iblk m c 1 t) (iblk m c 0 t) (iblk m c 3 t) (iblk m c 4 t) p k).trans ?_
  rw [View.read_apply]
  have e0 : ((cfg0.win 7).blk t).view.emb (ix2 p k) = (ix2 (rowAt t p) k : S262144x128.Idx) := by
    funext a
    apply Fin.ext
    match a with
    | ⟨0, _⟩ => show win0_7.index t 0 * 2048 + 1 * p.val = 2048 * t.val + p.val; rw [h0]; omega
    | ⟨1, _⟩ => show win0_7.index t 1 * 128 + 1 * k.val = k.val; rw [h1]; omega
  rw [e0]
  have hC : (fun k' => (iblk m c 0 t : Vec Ideal S2048x128 .f32) (ix2 p k')) = fun k' => ((m ((c : Thread nD τ).loc main_arg0)) : S262144x128.Idx → EReal) (ix2 (rowAt t p) k') :=
    funext fun k' => cRows_apply m c t p k'
  have hH : (fun k' => (iblk m c 1 t : Vec Ideal S2048x128 .f32) (ix2 p k')) = fun k' => ((m ((c : Thread nD τ).loc main_arg1)) : S262144x128.Idx → EReal) (ix2 (rowAt t p) k') :=
    funext fun k' => hRows_apply m c t p k'
  have hX : (fun k' => (iblk m c 2 t : Vec Ideal S2048x128 .f32) (ix2 p k')) = fun k' => ((m ((c : Thread nD τ).loc main_arg2)) : S262144x128.Idx → EReal) (ix2 (rowAt t p) k') :=
    funext fun k' => xRows_apply m c t p k'
  have hW : (fun (q : Fin 256) (j : Fin 512) => (iblk m c 3 t : Vec Ideal S256x512 .f32) (ix2 q j)) = fun q j => (V m c main_v1 : S256x512.Idx → EReal) (ix2 q j) :=
    funext fun q => funext fun j => gateW_apply m c t q j
  have hB : (fun (j : Fin 512) => (iblk m c 4 t : Vec Ideal S1x512 .f32) (ix2 0 j)) = fun j => (V m c main_v3 : S1x512.Idx → EReal) (ix2 0 j) :=
    funext fun j => gateB_apply m c t 0 j
  rw [hC, hH, hX, hW, hB]
  rfl

/-- What point t writes back to result window 8 is block t of the whole-array function: entry (p, k) of the stored block is
    the row-wise function of row p of the input blocks, which are rows 2048·t + p of the arrays. -/
theorem flushed8_eq (c : Dev nD) (t : Fin cfg0.N) :
    (dats m 0 c).flushed 8 t = ((cfg0.win 8).blk t).view.read (Elt Ideal) (hiddenArr (m ((c : Thread nD τ).loc main_arg0)) (m ((c : Thread nD τ).loc main_arg1)) (m ((c : Thread nD τ).loc main_arg2)) (V m c main_v1) (V m c main_v3)) := by
  obtain ⟨-, -, -, -, -, -, -, -, ⟨h0, h1⟩, -⟩ := idx_facts t
  show (cfg0.win 8).cut (grid0.coords t) ((dats m 0 c).after 8 t) = _
  rw [after8]
  unfold hiddenOut
  rw [View.canon_unit_zero hz]
  simp only [View.ld_unit_zero (S := S2048x128) hz, View.ld_unit_zero (S := S256x512) hz, View.ld_unit_zero (S := S1x512) hz]
  funext y
  obtain ⟨p, k, rfl⟩ : ∃ (p : Fin 2048) (k : Fin 128), y = ix2 p k := ⟨y 0, y 1, eq_ix2 y⟩
  refine (hidden_pay (iblk m c 2 t) (iblk m c 1 t) (iblk m c 0 t) (iblk m c 3 t) (iblk m c 4 t) p k).trans ?_
  rw [View.read_apply]
  have e0 : ((cfg0.win 8).blk t).view.emb (ix2 p k) = (ix2 (rowAt t p) k : S262144x128.Idx) := by
    funext a
    apply Fin.ext
    match a with
    | ⟨0, _⟩ => show win0_8.index t 0 * 2048 + 1 * p.val = 2048 * t.val + p.val; rw [h0]; omega
    | ⟨1, _⟩ => show win0_8.index t 1 * 128 + 1 * k.val = k.val; rw [h1]; omega
  rw [e0]
  have hC : (fun k' => (iblk m c 0 t : Vec Ideal S2048x128 .f32) (ix2 p k')) = fun k' => ((m ((c : Thread nD τ).loc main_arg0)) : S262144x128.Idx → EReal) (ix2 (rowAt t p) k') :=
    funext fun k' => cRows_apply m c t p k'
  have hH : (fun k' => (iblk m c 1 t : Vec Ideal S2048x128 .f32) (ix2 p k')) = fun k' => ((m ((c : Thread nD τ).loc main_arg1)) : S262144x128.Idx → EReal) (ix2 (rowAt t p) k') :=
    funext fun k' => hRows_apply m c t p k'
  have hX : (fun k' => (iblk m c 2 t : Vec Ideal S2048x128 .f32) (ix2 p k')) = fun k' => ((m ((c : Thread nD τ).loc main_arg2)) : S262144x128.Idx → EReal) (ix2 (rowAt t p) k') :=
    funext fun k' => xRows_apply m c t p k'
  have hW : (fun (q : Fin 256) (j : Fin 512) => (iblk m c 3 t : Vec Ideal S256x512 .f32) (ix2 q j)) = fun q j => (V m c main_v1 : S256x512.Idx → EReal) (ix2 q j) :=
    funext fun q => funext fun j => gateW_apply m c t q j
  have hB : (fun (j : Fin 512) => (iblk m c 4 t : Vec Ideal S1x512 .f32) (ix2 0 j)) = fun j => (V m c main_v3 : S1x512.Idx → EReal) (ix2 0 j) :=
    funext fun j => gateB_apply m c t 0 j
  rw [hC, hH, hX, hW, hB]
  rfl

/-- What point t writes back to result window 9 is block t of the whole-array function: entry (p, k) of the stored block is
    the row-wise function of row p of the input blocks, which are rows 2048·t + p of the arrays. -/
theorem flushed9_eq (c : Dev nD) (t : Fin cfg0.N) :
    (dats m 0 c).flushed 9 t = ((cfg0.win 9).blk t).view.read (Elt Ideal) (readoutArr (m ((c : Thread nD τ).loc main_arg0)) (m ((c : Thread nD τ).loc main_arg1)) (m ((c : Thread nD τ).loc main_arg2)) (V m c main_v1) (V m c main_v3) (V m c main_v4) (V m c main_v5)) := by
  obtain ⟨-, -, -, -, -, -, -, -, -, ⟨h0, h1⟩⟩ := idx_facts t
  show (cfg0.win 9).cut (grid0.coords t) ((dats m 0 c).after 9 t) = _
  rw [after9]
  unfold readOut
  rw [View.canon_unit_zero hz]
  simp only [View.ld_unit_zero (S := S2048x128) hz, View.ld_unit_zero (S := S256x512) hz, View.ld_unit_zero (S := S1x512) hz, View.ld_unit_zero (S := S128x128) hz, View.ld_unit_zero (S := S1x128) hz]
  funext y
  obtain ⟨p, k, rfl⟩ : ∃ (p : Fin 2048) (k : Fin 128), y = ix2 p k := ⟨y 0, y 1, eq_ix2 y⟩
  refine (readout_pay (iblk m c 2 t) (iblk m c 1 t) (iblk m c 0 t) (iblk m c 3 t) (iblk m c 4 t) (iblk m c 5 t) (iblk m c 6 t) p k).trans ?_
  rw [View.read_apply]
  have e0 : ((cfg0.win 9).blk t).view.emb (ix2 p k) = (ix2 (rowAt t p) k : S262144x128.Idx) := by
    funext a
    apply Fin.ext
    match a with
    | ⟨0, _⟩ => show win0_9.index t 0 * 2048 + 1 * p.val = 2048 * t.val + p.val; rw [h0]; omega
    | ⟨1, _⟩ => show win0_9.index t 1 * 128 + 1 * k.val = k.val; rw [h1]; omega
  rw [e0]
  have hC : (fun k' => (iblk m c 0 t : Vec Ideal S2048x128 .f32) (ix2 p k')) = fun k' => ((m ((c : Thread nD τ).loc main_arg0)) : S262144x128.Idx → EReal) (ix2 (rowAt t p) k') :=
    funext fun k' => cRows_apply m c t p k'
  have hH : (fun k' => (iblk m c 1 t : Vec Ideal S2048x128 .f32) (ix2 p k')) = fun k' => ((m ((c : Thread nD τ).loc main_arg1)) : S262144x128.Idx → EReal) (ix2 (rowAt t p) k') :=
    funext fun k' => hRows_apply m c t p k'
  have hX : (fun k' => (iblk m c 2 t : Vec Ideal S2048x128 .f32) (ix2 p k')) = fun k' => ((m ((c : Thread nD τ).loc main_arg2)) : S262144x128.Idx → EReal) (ix2 (rowAt t p) k') :=
    funext fun k' => xRows_apply m c t p k'
  have hW : (fun (q : Fin 256) (j : Fin 512) => (iblk m c 3 t : Vec Ideal S256x512 .f32) (ix2 q j)) = fun q j => (V m c main_v1 : S256x512.Idx → EReal) (ix2 q j) :=
    funext fun q => funext fun j => gateW_apply m c t q j
  have hB : (fun (j : Fin 512) => (iblk m c 4 t : Vec Ideal S1x512 .f32) (ix2 0 j)) = fun j => (V m c main_v3 : S1x512.Idx → EReal) (ix2 0 j) :=
    funext fun j => gateB_apply m c t 0 j
  have hWo : (fun (q : Fin 128) (k' : Fin 128) => (iblk m c 5 t : Vec Ideal S128x128 .f32) (ix2 q k')) = fun q k' => (V m c main_v4 : S128x128.Idx → EReal) (ix2 q k') :=
    funext fun q => funext fun k' => outW_apply m c t q k'
  have hBo : (fun (k' : Fin 128) => (iblk m c 6 t : Vec Ideal S1x128 .f32) (ix2 0 k')) = fun k' => (V m c main_v5 : S1x128.Idx → EReal) (ix2 0 k') :=
    funext fun k' => outB_apply m c t 0 k'
  rw [hC, hH, hX, hW, hB, hWo, hBo]
  rfl

/-! ### The blocks cover the arrays -/

/-- An index of result array 0 is in point t's block iff each coordinate is in the block's range on its axis. -/
theorem mem_blk7 (t : Fin cfg0.N) (i : S262144x128.Idx) :
    i ∈ ((cfg0.win 7).blk t).view.set ↔ ∀ a : Fin 2, win0_7.index t a * S2048x128.size a ≤ (i a).val ∧ (i a).val < win0_7.index t a * S2048x128.size a + S2048x128.size a := by
  show i ∈ ((View.whole main_v6_0).slice (win0_7.rect t)).set ↔ _
  rw [View.set_slice_whole, Rect.mem_set_unit]
  exact Iff.rfl

/-- Every index is in some written-back block: row r lies in block r / 2048. -/
theorem cover7 (i : S262144x128.Idx) : ∃ t : Fin cfg0.N, (cfg0.win 7).flush t = true ∧ i ∈ ((cfg0.win 7).blk t).view.set := by
  have hi0 : (i 0).val < 262144 := (i 0).isLt
  have hi1 : (i 1).val < 128 := (i 1).isLt
  let t : Fin cfg0.N := ⟨(i 0).val / 2048, by rw [show cfg0.N = 128 from N_0]; omega⟩
  obtain ⟨-, -, -, -, -, -, -, ⟨h0, h1⟩, -⟩ := idx_facts t
  refine ⟨t, flush0_7 t, ?_⟩
  rw [mem_blk7]
  intro a
  match a with
  | ⟨0, _⟩ => show win0_7.index t 0 * 2048 ≤ (i 0).val ∧ (i 0).val < win0_7.index t 0 * 2048 + 2048; rw [h0]; show (i 0).val / 2048 * 2048 ≤ _ ∧ _ < (i 0).val / 2048 * 2048 + 2048; omega
  | ⟨1, _⟩ => show win0_7.index t 1 * 128 ≤ (i 1).val ∧ (i 1).val < win0_7.index t 1 * 128 + 128; rw [h1]; omega

/-- The result array after the run is the whole-array function. -/
theorem final7 (c : Dev nD) : (dats m 0 c).arrAt 7 cfg0.N = cellArr (m ((c : Thread nD τ).loc main_arg0)) (m ((c : Thread nD τ).loc main_arg1)) (m ((c : Thread nD τ).loc main_arg2)) (V m c main_v1) (V m c main_v3) :=
  (dats m 0 c).arrAt_eq_of_cover 7 (cellArr (m ((c : Thread nD τ).loc main_arg0)) (m ((c : Thread nD τ).loc main_arg1)) (m ((c : Thread nD τ).loc main_arg2)) (V m c main_v1) (V m c main_v3)) (fun t _ => flushed7_eq m c t) cover7

/-- An index of result array 1 is in point t's block iff each coordinate is in the block's range on its axis. -/
theorem mem_blk8 (t : Fin cfg0.N) (i : S262144x128.Idx) :
    i ∈ ((cfg0.win 8).blk t).view.set ↔ ∀ a : Fin 2, win0_8.index t a * S2048x128.size a ≤ (i a).val ∧ (i a).val < win0_8.index t a * S2048x128.size a + S2048x128.size a := by
  show i ∈ ((View.whole main_v6_1).slice (win0_8.rect t)).set ↔ _
  rw [View.set_slice_whole, Rect.mem_set_unit]
  exact Iff.rfl

/-- Every index is in some written-back block: row r lies in block r / 2048. -/
theorem cover8 (i : S262144x128.Idx) : ∃ t : Fin cfg0.N, (cfg0.win 8).flush t = true ∧ i ∈ ((cfg0.win 8).blk t).view.set := by
  have hi0 : (i 0).val < 262144 := (i 0).isLt
  have hi1 : (i 1).val < 128 := (i 1).isLt
  let t : Fin cfg0.N := ⟨(i 0).val / 2048, by rw [show cfg0.N = 128 from N_0]; omega⟩
  obtain ⟨-, -, -, -, -, -, -, -, ⟨h0, h1⟩, -⟩ := idx_facts t
  refine ⟨t, flush0_8 t, ?_⟩
  rw [mem_blk8]
  intro a
  match a with
  | ⟨0, _⟩ => show win0_8.index t 0 * 2048 ≤ (i 0).val ∧ (i 0).val < win0_8.index t 0 * 2048 + 2048; rw [h0]; show (i 0).val / 2048 * 2048 ≤ _ ∧ _ < (i 0).val / 2048 * 2048 + 2048; omega
  | ⟨1, _⟩ => show win0_8.index t 1 * 128 ≤ (i 1).val ∧ (i 1).val < win0_8.index t 1 * 128 + 128; rw [h1]; omega

/-- The result array after the run is the whole-array function. -/
theorem final8 (c : Dev nD) : (dats m 0 c).arrAt 8 cfg0.N = hiddenArr (m ((c : Thread nD τ).loc main_arg0)) (m ((c : Thread nD τ).loc main_arg1)) (m ((c : Thread nD τ).loc main_arg2)) (V m c main_v1) (V m c main_v3) :=
  (dats m 0 c).arrAt_eq_of_cover 8 (hiddenArr (m ((c : Thread nD τ).loc main_arg0)) (m ((c : Thread nD τ).loc main_arg1)) (m ((c : Thread nD τ).loc main_arg2)) (V m c main_v1) (V m c main_v3)) (fun t _ => flushed8_eq m c t) cover8

/-- An index of result array 2 is in point t's block iff each coordinate is in the block's range on its axis. -/
theorem mem_blk9 (t : Fin cfg0.N) (i : S262144x128.Idx) :
    i ∈ ((cfg0.win 9).blk t).view.set ↔ ∀ a : Fin 2, win0_9.index t a * S2048x128.size a ≤ (i a).val ∧ (i a).val < win0_9.index t a * S2048x128.size a + S2048x128.size a := by
  show i ∈ ((View.whole main_v6_2).slice (win0_9.rect t)).set ↔ _
  rw [View.set_slice_whole, Rect.mem_set_unit]
  exact Iff.rfl

/-- Every index is in some written-back block: row r lies in block r / 2048. -/
theorem cover9 (i : S262144x128.Idx) : ∃ t : Fin cfg0.N, (cfg0.win 9).flush t = true ∧ i ∈ ((cfg0.win 9).blk t).view.set := by
  have hi0 : (i 0).val < 262144 := (i 0).isLt
  have hi1 : (i 1).val < 128 := (i 1).isLt
  let t : Fin cfg0.N := ⟨(i 0).val / 2048, by rw [show cfg0.N = 128 from N_0]; omega⟩
  obtain ⟨-, -, -, -, -, -, -, -, -, ⟨h0, h1⟩⟩ := idx_facts t
  refine ⟨t, flush0_9 t, ?_⟩
  rw [mem_blk9]
  intro a
  match a with
  | ⟨0, _⟩ => show win0_9.index t 0 * 2048 ≤ (i 0).val ∧ (i 0).val < win0_9.index t 0 * 2048 + 2048; rw [h0]; show (i 0).val / 2048 * 2048 ≤ _ ∧ _ < (i 0).val / 2048 * 2048 + 2048; omega
  | ⟨1, _⟩ => show win0_9.index t 1 * 128 ≤ (i 1).val ∧ (i 1).val < win0_9.index t 1 * 128 + 128; rw [h1]; omega

/-- The result array after the run is the whole-array function. -/
theorem final9 (c : Dev nD) : (dats m 0 c).arrAt 9 cfg0.N = readoutArr (m ((c : Thread nD τ).loc main_arg0)) (m ((c : Thread nD τ).loc main_arg1)) (m ((c : Thread nD τ).loc main_arg2)) (V m c main_v1) (V m c main_v3) (V m c main_v4) (V m c main_v5) :=
  (dats m 0 c).arrAt_eq_of_cover 9 (readoutArr (m ((c : Thread nD τ).loc main_arg0)) (m ((c : Thread nD τ).loc main_arg1)) (m ((c : Thread nD τ).loc main_arg2)) (V m c main_v1) (V m c main_v3) (V m c main_v4) (V m c main_v5)) (fun t _ => flushed9_eq m c t) cover9

/-! ### The run, read -/

/-- Every weakly fair execution of the idealized kernel's @main terminates with the three result arrays at the whole-array
    functions of the arguments and of the host-built arrays, and the thirteen arguments unchanged. -/
theorem run : θ_run defs (onTc (τ := τ) (main (F := Ideal))) ⟨m, fun _ => 0, ρ⟩ (fun r => ∀ c : Dev nD,
      r.2.mem ((c.tc : Thread nD τ).loc main_v6_0) = cellArr (m ((c : Thread nD τ).loc main_arg0)) (m ((c : Thread nD τ).loc main_arg1)) (m ((c : Thread nD τ).loc main_arg2)) (V m c main_v1) (V m c main_v3)
      ∧ r.2.mem ((c.tc : Thread nD τ).loc main_v6_1) = hiddenArr (m ((c : Thread nD τ).loc main_arg0)) (m ((c : Thread nD τ).loc main_arg1)) (m ((c : Thread nD τ).loc main_arg2)) (V m c main_v1) (V m c main_v3)
      ∧ r.2.mem ((c.tc : Thread nD τ).loc main_v6_2) = readoutArr (m ((c : Thread nD τ).loc main_arg0)) (m ((c : Thread nD τ).loc main_arg1)) (m ((c : Thread nD τ).loc main_arg2)) (V m c main_v1) (V m c main_v3) (V m c main_v4) (V m c main_v5)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c => ⟨((h c).1 7).trans (final7 m c), ((h c).1 8).trans (final8 m c), ((h c).1 9).trans (final9 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c)⟩) (run_main m ρ)

end Cert.KernelIdeal.CellValue

end
-- ==== Proof.KernelIdealHost.lean ====
import proofs.«162901_j54546084659583_1_alg».proof.Proof.KernelIdealFrame
import Idealize.ShloMosaic.Lib.Pipeline.Value
import Idealize.ShloMosaic.Lib.ValueIdx
import Idealize.ShloMosaic.Lib.StableHlo.Run

/-
  The four arrays the host builds before the region, as terms of the argument arrays: the stacked, transposed gate
  weights; the stacked gate bias as a row; the transposed read-out weights; the read-out bias as a row.
-/

set_option maxRecDepth 16384

noncomputable section

namespace Cert.KernelIdeal.HostArrays

open Cert.KernelIdeal Cert.KernelIdeal.Gen Cert.KernelIdeal.FrameRun Idealize.ShloMosaic Idealize.ShloMosaic.TcCoe
  Idealize.ShloMosaic.ValueIdx Idealize.SL.Sem Idealize.ShloMosaic.StableHlo

variable (m : (ℓ : Loc nD τ sig) → Buf (Elt Ideal) ℓ)

/-- The gate weights the region finds: the four [128,256] matrices stacked along axis 0, transposed to [256,512]. -/
theorem gateW_eq (c : Dev nD) :
    (V m c main_v1 : S256x512.Idx → EReal)
      = transpose S256x512 [1, 0]
          (concatenate S512x256 0 [⟨S128x256, m ((c : Thread nD τ).loc main_arg3)⟩, ⟨S128x256, m ((c : Thread nD τ).loc main_arg4)⟩,
          ⟨S128x256, m ((c : Thread nD τ).loc main_arg5)⟩, ⟨S128x256, m ((c : Thread nD τ).loc main_arg6)⟩]
          concatenates_S128x256_S128x256_S128x256_S128x256_S512x256_d0)
          transposes_S512x256_S256x512_1_0 := by
  dsimp only [V, hostOps0]
  after_results
  rfl

/-- The gate bias row the region finds, as a whole: the four bias vectors stacked, recast as one row [1,512]. -/
theorem gateB_eq (c : Dev nD) :
    (V m c main_v3 : S1x512.Idx → EReal)
      = shapeCast S1x512
          (concatenate S512 0 [⟨S128, m ((c : Thread nD τ).loc main_arg8)⟩, ⟨S128, m ((c : Thread nD τ).loc main_arg9)⟩,
          ⟨S128, m ((c : Thread nD τ).loc main_arg10)⟩, ⟨S128, m ((c : Thread nD τ).loc main_arg11)⟩]
          concatenates_S128_S128_S128_S128_S512_d0)
          shapeCasts_S512_S1x512 := by
  dsimp only [V, hostOps0]
  after_results
  rfl

/-- Entry `j` of the gate bias row is entry `j` of the four bias vectors stacked. -/
theorem gateB_apply (c : Dev nD) (j : Fin 512) :
    (V m c main_v3 : S1x512.Idx → EReal) (ix2 0 j)
      = concatenate S512 0 [⟨S128, m ((c : Thread nD τ).loc main_arg8)⟩, ⟨S128, m ((c : Thread nD τ).loc main_arg9)⟩,
          ⟨S128, m ((c : Thread nD τ).loc main_arg10)⟩, ⟨S128, m ((c : Thread nD τ).loc main_arg11)⟩]
          concatenates_S128_S128_S128_S128_S512_d0 (ix1 j) := by
  rw [gateB_eq]
  exact shapeCast_apply _ shapeCasts_S512_S1x512 (ix2 0 j) (ix1 j) (by
    rw [Shape.rowMajor_val_two, Shape.rowMajor_val_one]; show j.val = 0 * 512 + j.val; omega)

/-- The read-out weights the region finds: the [128,128] read-out matrix transposed. -/
theorem outW_eq (c : Dev nD) :
    (V m c main_v4 : S128x128.Idx → EReal)
      = transpose S128x128 [1, 0] (m ((c : Thread nD τ).loc main_arg7)) transposes_S128x128_S128x128_1_0 := by
  dsimp only [V, hostOps0]
  after_results

/-- The read-out bias row the region finds, as a whole: the bias vector recast as one row [1,128]. -/
theorem outB_eq (c : Dev nD) :
    (V m c main_v5 : S1x128.Idx → EReal)
      = shapeCast S1x128 (m ((c : Thread nD τ).loc main_arg12)) shapeCasts_S128_S1x128 := by
  dsimp only [V, hostOps0]
  after_results
  rfl

/-- Entry `k` of the read-out bias row is entry `k` of the read-out bias vector. -/
theorem outB_apply (c : Dev nD) (k : Fin 128) :
    (V m c main_v5 : S1x128.Idx → EReal) (ix2 0 k) = (m ((c : Thread nD τ).loc main_arg12) : S128.Idx → EReal) (ix1 k) := by
  rw [outB_eq]
  exact shapeCast_apply _ shapeCasts_S128_S1x128 (ix2 0 k) (ix1 k) (by
    rw [Shape.rowMajor_val_two, Shape.rowMajor_val_one]; show k.val = 0 * 128 + k.val; omega)

end Cert.KernelIdeal.HostArrays

end
-- ==== Proof.RefSide.lean ====
import proofs.«162901_j54546084659583_1_alg».proof.Defs
import proofs.«162901_j54546084659583_1_alg».proof.Proof.Gen.ReferenceIdeal.Run
import proofs.«162901_j54546084659583_1_alg».proof.Proof.Gen.ReferenceIdeal.Read
import proofs.«162901_j54546084659583_1_alg».proof.Proof.CellSpec

/-
  The reference program's three results, read at an index, are the row-wise LSTM functions of the specification:
  the new cell state, the new hidden state and the read-out of row `r` at entry `k`.
-/

noncomputable section

namespace Cert.ReferenceIdeal.RefValue

open Cert.ReferenceIdeal Cert.ReferenceIdeal.Gen Cert.ReferenceIdeal.Read Idealize.ShloMosaic Idealize.ShloMosaic.ValueIdx Cert.CellSpec

/-- The single-precision word `0x3F800000` denotes the extended real one. -/
theorem ofBits_one : Ideal.ofBits .f32 0x3F800000#32 = 1 := by
  simp [Ideal.ofBits, Ideal.ieee]
  rw [← EReal.coe_mul]
  norm_num

/-- The quotient 1 / (1 + e^(-g)), with both ones given by their words, is the logistic function of `g`. -/
theorem logistic_spelled (g : Ideal .f32) :
    FloatOps.hostDivf (FloatOps.ofBits (F := Ideal) .f32 0x3F800000#32)
        (FloatOps.addf (FloatOps.ofBits (F := Ideal) .f32 0x3F800000#32) (FloatOps.hostUnary .exp (FloatOps.hostNegf g)))
      = Ideal.logistic g := by
  show Ideal.div (Ideal.ofBits .f32 0x3F800000#32) (Ideal.ofBits .f32 0x3F800000#32 + Ideal.exp (-g)) = Ideal.logistic g
  rw [ofBits_one]
  rfl

variable (x0 x1 x2 : (⟨S262144x128, .f32⟩ : BufTy).Contents (Elt Ideal))
  (x3 x4 x5 x6 : (⟨S128x256, .f32⟩ : BufTy).Contents (Elt Ideal))
  (x7 : (⟨S128x128, .f32⟩ : BufTy).Contents (Elt Ideal))
  (x8 x9 x10 x11 x12 : (⟨S128, .f32⟩ : BufTy).Contents (Elt Ideal))

/-- A row of the concatenation of the input and the hidden state is the specification's row [x | h]. -/
theorem xh_apply (r : Fin 262144) (q : Fin 256) :
    val_main_v0 (F := Ideal) x1 x2 (ix2 r q) = xh (fun k => x2 (ix2 r k)) (fun k => x1 (ix2 r k)) q := by
  unfold val_main_v0
  by_cases hq : q.val < 128
  · rw [xh_left _ _ q hq]
    exact concatenate_pair_apply_left 1 x2 x1 concatenates_S262144x128_S262144x128_S262144x256_d1 (ix2 r q) rfl
      (ix2 r ⟨q.val, hq⟩) (fun b => match b with | ⟨0, _⟩ => rfl | ⟨1, _⟩ => rfl)
  · have hq' : 128 ≤ q.val := Nat.not_lt.1 hq
    rw [xh_right _ _ q hq']
    exact concatenate_pair_apply_right 1 x2 x1 concatenates_S262144x128_S262144x128_S262144x256_d1 (ix2 r q) rfl rfl
      (ix2 r ⟨q.val - 128, by have := q.isLt; omega⟩)
      (fun b hb => match b, hb with | ⟨0, _⟩, _ => rfl | ⟨1, _⟩, hb => absurd rfl hb)
      (by show q.val - 128 + 128 = q.val; omega)

/-- Entry `j` of row `r` of the gate pre-activations: the row [x | h] against column `j` of the stacked weights, plus the
    stacked bias at `j`. -/
theorem gate_apply (r : Fin 262144) (j : Fin 512) :
    val_main_v7 (F := Ideal) x1 x2 x3 x4 x5 x6 x8 x9 x10 x11 (ix2 r j)
      = gate (fun k => x2 (ix2 r k)) (fun k => x1 (ix2 r k))
          (fun q j => val_main_v3 (F := Ideal) x3 x4 x5 x6 (ix2 q j))
          (fun j => val_main_v2 (F := Ideal) x8 x9 x10 x11 (ix1 j)) j := by
  have hl : ∀ k : Fin 256, lidx_main_v4 (ix2 r j) k = ix2 r k := fun k => funext fun a => Fin.ext (by match a with | ⟨0, _⟩ => rfl | ⟨1, _⟩ => rfl)
  have hr : ∀ k : Fin 256, ridx_main_v4 (ix2 r j) k = ix2 k j := fun k => funext fun a => Fin.ext (by match a with | ⟨0, _⟩ => rfl | ⟨1, _⟩ => rfl)
  have hb : idx_main_v5 (idx_main_v6 (ix2 r j)) = ix1 j := funext fun a => Fin.ext (by match a with | ⟨0, _⟩ => rfl)
  rw [val_main_v7_apply, val_main_v4_apply, val_main_v6_apply, val_main_v5_apply, hb, Ideal.addf_def]
  unfold gate
  refine congrArg (· + _) (Finset.sum_congr rfl fun k _ => ?_)
  rw [hl, hr, xh_apply]

/-- The input gate of row `r` at entry `k`: the logistic function of gate column 128 + k. -/
theorem input_gate_apply (r : Fin 262144) (k : Fin 128) :
    val_main_v18 (F := Ideal) x1 x2 x3 x4 x5 x6 x8 x9 x10 x11 (ix2 r k)
      = Ideal.logistic (gate (fun k => x2 (ix2 r k)) (fun k => x1 (ix2 r k))
          (fun q j => val_main_v3 (F := Ideal) x3 x4 x5 x6 (ix2 q j))
          (fun j => val_main_v2 (F := Ideal) x8 x9 x10 x11 (ix1 j)) (col 1 k)) := by
  have hs : idx_main_v9 (ix2 r k) = ix2 r (col 1 k) := funext fun a => Fin.ext (by match a with | ⟨0, _⟩ => rfl | ⟨1, _⟩ => rfl)
  rw [val_main_v18_apply, val_main_v17_apply, val_main_cst_0_apply, val_main_v16_apply, val_main_v15_apply,
    val_main_cst_apply, val_main_v14_apply, val_main_v13_apply, val_main_v9_apply, hs, gate_apply]
  exact logistic_spelled _

/-- The forget gate of row `r` at entry `k`: the logistic function of gate column 256 + k. -/
theorem forget_gate_apply (r : Fin 262144) (k : Fin 128) :
    val_main_v24 (F := Ideal) x1 x2 x3 x4 x5 x6 x8 x9 x10 x11 (ix2 r k)
      = Ideal.logistic (gate (fun k => x2 (ix2 r k)) (fun k => x1 (ix2 r k))
          (fun q j => val_main_v3 (F := Ideal) x3 x4 x5 x6 (ix2 q j))
          (fun j => val_main_v2 (F := Ideal) x8 x9 x10 x11 (ix1 j)) (col 2 k)) := by
  have hs : idx_main_v10 (ix2 r k) = ix2 r (col 2 k) := funext fun a => Fin.ext (by match a with | ⟨0, _⟩ => rfl | ⟨1, _⟩ => rfl)
  rw [val_main_v24_apply, val_main_v23_apply, val_main_cst_2_apply, val_main_v22_apply, val_main_v21_apply,
    val_main_cst_1_apply, val_main_v20_apply, val_main_v19_apply, val_main_v10_apply, hs, gate_apply]
  exact logistic_spelled _

/-- The output gate of row `r` at entry `k`: the logistic function of gate column 384 + k. -/
theorem output_gate_apply (r : Fin 262144) (k : Fin 128) :
    val_main_v30 (F := Ideal) x1 x2 x3 x4 x5 x6 x8 x9 x10 x11 (ix2 r k)
      = Ideal.logistic (gate (fun k => x2 (ix2 r k)) (fun k => x1 (ix2 r k))
          (fun q j => val_main_v3 (F := Ideal) x3 x4 x5 x6 (ix2 q j))
          (fun j => val_main_v2 (F := Ideal) x8 x9 x10 x11 (ix1 j)) (col 3 k)) := by
  have hs : idx_main_v11 (ix2 r k) = ix2 r (col 3 k) := funext fun a => Fin.ext (by match a with | ⟨0, _⟩ => rfl | ⟨1, _⟩ => rfl)
  rw [val_main_v30_apply, val_main_v29_apply, val_main_cst_4_apply, val_main_v28_apply, val_main_v27_apply,
    val_main_cst_3_apply, val_main_v26_apply, val_main_v25_apply, val_main_v11_apply, hs, gate_apply]
  exact logistic_spelled _

/-- The candidate of row `r` at entry `k`: tanh of gate column k. -/
theorem candidate_apply (r : Fin 262144) (k : Fin 128) :
    val_main_v12 (F := Ideal) x1 x2 x3 x4 x5 x6 x8 x9 x10 x11 (ix2 r k)
      = Ideal.tanh (gate (fun k => x2 (ix2 r k)) (fun k => x1 (ix2 r k))
          (fun q j => val_main_v3 (F := Ideal) x3 x4 x5 x6 (ix2 q j))
          (fun j => val_main_v2 (F := Ideal) x8 x9 x10 x11 (ix1 j)) (col 0 k)) := by
  have hs : idx_main_v8 (ix2 r k) = ix2 r (col 0 k) :=
    funext fun a => Fin.ext (by match a with | ⟨0, _⟩ => rfl | ⟨1, _⟩ => exact (Nat.zero_add k.val).symm)
  rw [val_main_v12_apply, val_main_v8_apply, hs, gate_apply]
  rfl

/-- The reference's new cell state at row `r`, entry `k`, is the specification's `cell` of that row. -/
theorem cell_apply (r : Fin 262144) (k : Fin 128) :
    val_main_v33 (F := Ideal) x0 x1 x2 x3 x4 x5 x6 x8 x9 x10 x11 (ix2 r k)
      = cell (fun k => x0 (ix2 r k)) (fun k => x2 (ix2 r k)) (fun k => x1 (ix2 r k))
          (fun q j => val_main_v3 (F := Ideal) x3 x4 x5 x6 (ix2 q j))
          (fun j => val_main_v2 (F := Ideal) x8 x9 x10 x11 (ix1 j)) k := by
  rw [val_main_v33_apply, val_main_v31_apply, val_main_v32_apply, forget_gate_apply, input_gate_apply, candidate_apply]
  rfl

/-- The reference's new hidden state at row `r`, entry `k`, is the specification's `hidden` of that row. -/
theorem hidden_apply (r : Fin 262144) (k : Fin 128) :
    val_main_v35 (F := Ideal) x0 x1 x2 x3 x4 x5 x6 x8 x9 x10 x11 (ix2 r k)
      = CellSpec.hidden (fun k => x0 (ix2 r k)) (fun k => x2 (ix2 r k)) (fun k => x1 (ix2 r k))
          (fun q j => val_main_v3 (F := Ideal) x3 x4 x5 x6 (ix2 q j))
          (fun j => val_main_v2 (F := Ideal) x8 x9 x10 x11 (ix1 j)) k := by
  rw [val_main_v35_apply, val_main_v34_apply, output_gate_apply, cell_apply]
  rfl

/-- The reference's read-out at row `r`, entry `k`, is the specification's `readout` of that row. -/
theorem readout_apply (r : Fin 262144) (k : Fin 128) :
    val_main_v46 (F := Ideal) x0 x1 x2 x3 x4 x5 x6 x7 x8 x9 x10 x11 x12 (ix2 r k)
      = readout (fun k => x0 (ix2 r k)) (fun k => x2 (ix2 r k)) (fun k => x1 (ix2 r k))
          (fun q j => val_main_v3 (F := Ideal) x3 x4 x5 x6 (ix2 q j))
          (fun j => val_main_v2 (F := Ideal) x8 x9 x10 x11 (ix1 j))
          (fun q k => val_main_v36 (F := Ideal) x7 (ix2 q k)) (fun k => x12 (ix1 k)) k := by
  have hl : ∀ q : Fin 128, lidx_main_v37 (ix2 r k) q = ix2 r q := fun q => funext fun a => Fin.ext (by match a with | ⟨0, _⟩ => rfl | ⟨1, _⟩ => rfl)
  have hr : ∀ q : Fin 128, ridx_main_v37 (ix2 r k) q = ix2 q k := fun q => funext fun a => Fin.ext (by match a with | ⟨0, _⟩ => rfl | ⟨1, _⟩ => rfl)
  have hb : idx_main_v38 (idx_main_v39 (ix2 r k)) = ix1 k := funext fun a => Fin.ext (by match a with | ⟨0, _⟩ => rfl)
  rw [val_main_v46_apply, val_main_v45_apply, val_main_cst_6_apply, val_main_v44_apply, val_main_v43_apply, val_main_cst_5_apply,
    val_main_v42_apply, val_main_v41_apply, logistic_spelled, val_main_v40_apply, val_main_v37_apply, val_main_v39_apply,
    val_main_v38_apply, hb, Ideal.addf_def]
  unfold readout
  refine congrArg Ideal.logistic (congrArg (· + _) (Finset.sum_congr rfl fun q _ => ?_))
  rw [hl, hr, hidden_apply]

end Cert.ReferenceIdeal.RefValue

end
-- ==== Proof.Bridge.lean ====
/-
  The two programs compute one function.

  The idealized kernel's result arrays are the whole-array functions `cellArr`, `hiddenArr`, `readoutArr` of c_, h_, x and
  of the four arrays its host operations build; the reference's results are its stages `val_main_v33`, `val_main_v35`,
  `val_main_v46` of the arguments. At entry (r, k) both are the specification's `cell`, `hidden`, `readout` at entry k of
  row r — the kernel's by what its blocks store, the reference's by reading its operations one at a time (its sigmoid is
  spelled 1 / (1 + e⁻ᵍ), which is the logistic function) — provided the weights and biases agree: the gate weights the
  region finds are the reference's transposed stack of the four weight matrices, its gate bias row is the reference's
  stacked bias laid as a row, and likewise for the read-out weights and bias. Those four facts are hypotheses here.
-/
import proofs.«162901_j54546084659583_1_alg».proof.Proof.KernelIdealValue
import proofs.«162901_j54546084659583_1_alg».proof.Proof.RefSide

noncomputable section

namespace Cert.Bridge

open Idealize.ShloMosaic Idealize.ShloMosaic.ValueIdx Cert.CellSpec
open Cert.KernelIdeal.CellValue (cellArr hiddenArr readoutArr)
open Cert.ReferenceIdeal.Read Cert.ReferenceIdeal.RefValue

variable (x0 x1 x2 : (⟨Cert.ReferenceIdeal.S262144x128, .f32⟩ : BufTy).Contents (Elt Ideal))
  (x3 x4 x5 x6 : (⟨Cert.ReferenceIdeal.S128x256, .f32⟩ : BufTy).Contents (Elt Ideal))
  (x7 : (⟨Cert.ReferenceIdeal.S128x128, .f32⟩ : BufTy).Contents (Elt Ideal))
  (x8 x9 x10 x11 x12 : (⟨Cert.ReferenceIdeal.S128, .f32⟩ : BufTy).Contents (Elt Ideal))
  (W : Cert.KernelIdeal.S256x512.Idx → EReal) (B : Cert.KernelIdeal.S1x512.Idx → EReal)
  (Wo : Cert.KernelIdeal.S128x128.Idx → EReal) (Bo : Cert.KernelIdeal.S1x128.Idx → EReal)

/-- The new cell state: the reference's stage is the kernel's whole-array function. -/
theorem cell_eq (hW : ∀ (q : Fin 256) (j : Fin 512), W (ix2 q j) = val_main_v3 (F := Ideal) x3 x4 x5 x6 (ix2 q j))
    (hB : ∀ j : Fin 512, B (ix2 0 j) = val_main_v2 (F := Ideal) x8 x9 x10 x11 (ix1 j)) :
    val_main_v33 (F := Ideal) x0 x1 x2 x3 x4 x5 x6 x8 x9 x10 x11 = cellArr x0 x1 x2 W B := by
  funext i
  obtain ⟨r, k, rfl⟩ : ∃ (r : Fin 262144) (k : Fin 128), i = ix2 r k := ⟨i 0, i 1, eq_ix2 i⟩
  rw [cell_apply]
  unfold cellArr
  have e1 : (fun (q : Fin 256) (j : Fin 512) => W (ix2 q j)) = fun q j => val_main_v3 (F := Ideal) x3 x4 x5 x6 (ix2 q j) :=
    funext fun q => funext fun j => hW q j
  have e2 : (fun j : Fin 512 => B (ix2 0 j)) = fun j => val_main_v2 (F := Ideal) x8 x9 x10 x11 (ix1 j) := funext hB
  rw [e1, e2]

/-- The new hidden state: the reference's stage is the kernel's whole-array function. -/
theorem hidden_eq (hW : ∀ (q : Fin 256) (j : Fin 512), W (ix2 q j) = val_main_v3 (F := Ideal) x3 x4 x5 x6 (ix2 q j))
    (hB : ∀ j : Fin 512, B (ix2 0 j) = val_main_v2 (F := Ideal) x8 x9 x10 x11 (ix1 j)) :
    val_main_v35 (F := Ideal) x0 x1 x2 x3 x4 x5 x6 x8 x9 x10 x11 = hiddenArr x0 x1 x2 W B := by
  funext i
  obtain ⟨r, k, rfl⟩ : ∃ (r : Fin 262144) (k : Fin 128), i = ix2 r k := ⟨i 0, i 1, eq_ix2 i⟩
  rw [hidden_apply]
  unfold hiddenArr
  have e1 : (fun (q : Fin 256) (j : Fin 512) => W (ix2 q j)) = fun q j => val_main_v3 (F := Ideal) x3 x4 x5 x6 (ix2 q j) :=
    funext fun q => funext fun j => hW q j
  have e2 : (fun j : Fin 512 => B (ix2 0 j)) = fun j => val_main_v2 (F := Ideal) x8 x9 x10 x11 (ix1 j) := funext hB
  rw [e1, e2]

/-- The read-out: the reference's stage is the kernel's whole-array function. -/
theorem readout_eq (hW : ∀ (q : Fin 256) (j : Fin 512), W (ix2 q j) = val_main_v3 (F := Ideal) x3 x4 x5 x6 (ix2 q j))
    (hB : ∀ j : Fin 512, B (ix2 0 j) = val_main_v2 (F := Ideal) x8 x9 x10 x11 (ix1 j))
    (hWo : ∀ (q k : Fin 128), Wo (ix2 q k) = val_main_v36 (F := Ideal) x7 (ix2 q k))
    (hBo : ∀ k : Fin 128, Bo (ix2 0 k) = x12 (ix1 k)) :
    val_main_v46 (F := Ideal) x0 x1 x2 x3 x4 x5 x6 x7 x8 x9 x10 x11 x12 = readoutArr x0 x1 x2 W B Wo Bo := by
  funext i
  obtain ⟨r, k, rfl⟩ : ∃ (r : Fin 262144) (k : Fin 128), i = ix2 r k := ⟨i 0, i 1, eq_ix2 i⟩
  rw [readout_apply]
  unfold readoutArr
  have e1 : (fun (q : Fin 256) (j : Fin 512) => W (ix2 q j)) = fun q j => val_main_v3 (F := Ideal) x3 x4 x5 x6 (ix2 q j) :=
    funext fun q => funext fun j => hW q j
  have e2 : (fun j : Fin 512 => B (ix2 0 j)) = fun j => val_main_v2 (F := Ideal) x8 x9 x10 x11 (ix1 j) := funext hB
  have e3 : (fun (q k : Fin 128) => Wo (ix2 q k)) = fun q k => val_main_v36 (F := Ideal) x7 (ix2 q k) :=
    funext fun q => funext fun k => hWo q k
  have e4 : (fun k : Fin 128 => Bo (ix2 0 k)) = fun k => x12 (ix1 k) := funext hBo
  rw [e1, e2, e3, e4]

end Cert.Bridge

end
-- ==== Proof.lean ====
/-
  The certificate of an LSTM cell written as one Pallas kernel against its jnp reference, on the extended reals.

  Both programs take the previous cell state c_, the previous hidden state h_ and the input x (262144 rows of 128), four
  gate weight matrices [128,256] with their biases, and the read-out weights [128,128] with their bias, and return the
  new cell state, the new hidden state and the read-out. Row by row (Proof/CellSpec.lean):

      gate j    = Σ_q [x | h]_q · W_{q,j} + b_j             W the four matrices stacked and transposed, b the stacked bias
      cell k    = σ(gate (256+k)) · c_k + σ(gate (128+k)) · tanh(gate k)
      hidden k  = σ(gate (384+k)) · tanh(cell k)
      readout k = σ(Σ_q hidden q · Wout_{k,q} + bout_k)

  * The kernel's frame, as printed and idealized (Proof/KernelFrame.lean, Proof/KernelIdealFrame.lean): six host operations
    build W, b, the transposed read-out weights and the two bias rows without writing an argument; the region's 128 points
    each load whole blocks and store whole blocks; the arguments end as launched.
  * The reference's frame is its generated run with the results dropped.
  * The idealization rewrote nothing, so its ledger is empty and `preserves` is `True`.
  * `algebraic`: the idealized kernel's result arrays are whole-array functions of the arguments (Proof/KernelIdealValue.lean,
    over Proof/KernelIdealPayload.lean: what a block stores, entry by entry — a change of float format is the identity, a
    product into a zero accumulator is the plain sum); the reference's stages read at an index are the same row-wise
    functions (Proof/RefSide.lean: its sigmoid is spelled 1 / (1 + e⁻ᵍ), the logistic function, its one being the word
    0x3F800000); the weights and biases the region finds are the reference's (Proof/KernelIdealHost.lean); so the results
    agree entry by entry (Proof/Bridge.lean). No step uses that the inputs are finite: sums and products are only
    regrouped by index, never distributed or cancelled.
-/
import proofs.«162901_j54546084659583_1_alg».proof.Defs
import proofs.«162901_j54546084659583_1_alg».proof.Proof.KernelFrame
import proofs.«162901_j54546084659583_1_alg».proof.Proof.KernelIdealFrame
import proofs.«162901_j54546084659583_1_alg».proof.Proof.KernelIdealValue
import proofs.«162901_j54546084659583_1_alg».proof.Proof.KernelIdealHost
import proofs.«162901_j54546084659583_1_alg».proof.Proof.RefSide
import proofs.«162901_j54546084659583_1_alg».proof.Proof.Bridge
import proofs.«162901_j54546084659583_1_alg».proof.Proof.Gen.Kernel
import proofs.«162901_j54546084659583_1_alg».proof.Proof.Gen.KernelIdeal
import proofs.«162901_j54546084659583_1_alg».proof.Proof.Gen.ReferenceIdeal
import proofs.«162901_j54546084659583_1_alg».proof.Proof.Gen.Pre_finite_inputs
import Idealize.ShloMosaic.Adequacy
import Idealize.ShloMosaic.Init

noncomputable section

namespace Cert.Proof

open Idealize.ShloMosaic Idealize.ShloMosaic.TcCoe Idealize.ShloMosaic.ValueIdx Idealize.SL.Sem

theorem frame_kernel : Cert.frame_Kernel := fun m ρ _ => Cert.Kernel.FrameRun.frame m ρ

theorem frame_kernelIdeal : Cert.frame_KernelIdeal := fun m ρ _ => Cert.KernelIdeal.FrameRun.frame m ρ

/-- The reference's run ends with its three results named and its arguments unchanged; the frame keeps the latter. -/
theorem frame_reference : Cert.frame_ReferenceIdeal := fun m ρ _ =>
  (θ_run Cert.ReferenceIdeal.defs _ _).mono (fun _ h c => (h c).2.2.2) (Cert.ReferenceIdeal.Value.run (F := Ideal) m ρ)

theorem preserves : Cert.preserves_Kernel_KernelIdeal := trivial

/-- From memories agreeing on the thirteen arguments both programs run to the same three arrays: the kernel's run names
    its results as whole-array functions of the arguments and of the arrays its host operations build; the reference's
    run names its stages; the arguments agree; the host-built arrays are the reference's; the bridge. -/
theorem algebraic : Cert.algebraic_KernelIdeal_ReferenceIdeal := by
  intro m ρ m' ρ' _ hagree
  refine ⟨_, _, _, Cert.KernelIdeal.CellValue.run m ρ, ?_⟩
  refine (θ_run Cert.ReferenceIdeal.defs _ _).mono (fun _ h c => ?_) (Cert.ReferenceIdeal.Value.run (F := Ideal) m' ρ')
  obtain ⟨a0, a1, a2, a3, a4, a5, a6, a7, a8, a9, a10, a11, a12⟩ := hagree c
  obtain ⟨r0, r1, r2, hargs⟩ := h c
  have hW : ∀ (q : Fin 256) (j : Fin 512), (Cert.KernelIdeal.FrameRun.V m c Cert.KernelIdeal.main_v1 : Cert.KernelIdeal.S256x512.Idx → EReal) (ix2 q j)
      = Cert.ReferenceIdeal.Read.val_main_v3 (F := Ideal) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (ix2 q j) :=
    fun q j => congrFun (Cert.KernelIdeal.HostArrays.gateW_eq m c) (ix2 q j)
  have hB : ∀ j : Fin 512, (Cert.KernelIdeal.FrameRun.V m c Cert.KernelIdeal.main_v3 : Cert.KernelIdeal.S1x512.Idx → EReal) (ix2 0 j)
      = Cert.ReferenceIdeal.Read.val_main_v2 (F := Ideal) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (ix1 j) :=
    fun j => Cert.KernelIdeal.HostArrays.gateB_apply m c j
  have hWo : ∀ (q k : Fin 128), (Cert.KernelIdeal.FrameRun.V m c Cert.KernelIdeal.main_v4 : Cert.KernelIdeal.S128x128.Idx → EReal) (ix2 q k)
      = Cert.ReferenceIdeal.Read.val_main_v36 (F := Ideal) (m ((c.tc : Thread Cert.KernelIdeal.nD Cert.KernelIdeal.τ).loc Cert.KernelIdeal.main_arg7)) (ix2 q k) :=
    fun q k => congrFun (Cert.KernelIdeal.HostArrays.outW_eq m c) (ix2 q k)
  have hBo : ∀ k : Fin 128, (Cert.KernelIdeal.FrameRun.V m c Cert.KernelIdeal.main_v5 : Cert.KernelIdeal.S1x128.Idx → EReal) (ix2 0 k)
      = ((m ((c.tc : Thread Cert.KernelIdeal.nD Cert.KernelIdeal.τ).loc Cert.KernelIdeal.main_arg12)) : Cert.KernelIdeal.S128.Idx → EReal) (ix1 k) :=
    fun k => Cert.KernelIdeal.HostArrays.outB_apply m c k
  refine ⟨r0.trans ?_, r1.trans ?_, r2.trans ?_, hargs⟩
  · rw [a0, a1, a2, a3, a4, a5, a6, a8, a9, a10, a11]
    exact Cert.Bridge.cell_eq (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) _ _ hW hB
  · rw [Cert.ReferenceIdeal.Read.val_main_v35_eq, a0, a1, a2, a3, a4, a5, a6, a8, a9, a10, a11]
    exact Cert.Bridge.hidden_eq (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) _ _ hW hB
  · rw [Cert.ReferenceIdeal.Read.val_main_v46_eq, a0, a1, a2, a3, a4, a5, a6, a7, a8, a9, a10, a11, a12]
    exact Cert.Bridge.readout_eq (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) _ _ _ _ hW hB hWo hBo

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
